-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x92 : Shape := ⟨2, ![50000, 92]⟩
abbrev S1600000x3 : Shape := ⟨2, ![1600000, 3]⟩
abbrev S1600000 : Shape := ⟨1, ![1600000]⟩
abbrev S50000 : Shape := ⟨1, ![50000]⟩
abbrev S92x128 : Shape := ⟨2, ![92, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x92 : S_.BroadcastsInDim S50000x92 (![] : Fin 0 → Fin S50000x92.rank)
  reducesTo_S50000x92_S_d0_1 : S50000x92.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S92x128 : S_.BroadcastsInDim S92x128 (![] : Fin 0 → Fin S92x128.rank)
  reducesTo_S92x128_S_d0_1 : S92x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg10 main_v33

def fn {F : FTy → Type} [FloatOps F] (main_arg0 : FVec F S50000x92 .f32) (main_arg1 : FVec F S1600000x3 .f32) (main_arg2 : IVec S1600000 32) (main_arg3 : IVec S1600000 32) (main_arg4 : IVec S50000 32) (main_arg5 : FVec F S92x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x92 .f32 := Host.absf main_arg0
  let main_cst : FVec F S_ .f32 := constant S_ .f32 0x7F800000#32
  let main_v1 : FVec F S50000x92 .f32 := broadcastInDim S50000x92 ![] bcast_S_S50000x92 main_cst
  let main_v2 : IVec S50000x92 1 := cmpf .olt main_v0 main_v1
  let main_c : IVec S_ 1 := constantI S_ 1 1#1
  let main_v3 : IVec S_ 1 := (fun x v => Host.reduce IntOp.andi x v reducesTo_S50000x92_S_d0_1 h_S_) main_v2 main_c
  let main_v4 : FVec F S1600000x3 .f32 := Host.absf main_arg1
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S92x128 .f32 := Host.absf main_arg5
  let main_cst_2 : FVec F S_ .f32 := constant S_ .f32 0x7F800000#32
  let main_v10 : FVec F S92x128 .f32 := broadcastInDim S92x128 ![] bcast_S_S92x128 main_cst_2
  let main_v11 : IVec S92x128 1 := cmpf .olt main_v9 main_v10
  let main_c_3 : IVec S_ 1 := constantI S_ 1 1#1
  let main_v12 : IVec S_ 1 := (fun x v => Host.reduce IntOp.andi x v reducesTo_S92x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_v13 main_v16
-- ==== Kernel.lean ====
abbrev S50000x92 : Shape := ⟨2, ![50000, 92]⟩
abbrev S1600000x3 : Shape := ⟨2, ![1600000, 3]⟩
abbrev S1600000 : Shape := ⟨1, ![1600000]⟩
abbrev S50000 : Shape := ⟨1, ![50000]⟩
abbrev S92x128 : Shape := ⟨2, ![92, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1600000x1 : Shape := ⟨2, ![1600000, 1]⟩
abbrev S8000x3 : Shape := ⟨2, ![8000, 3]⟩
abbrev S8000x1 : Shape := ⟨2, ![8000, 1]⟩
abbrev S8000 : Shape := ⟨1, ![8000]⟩
abbrev S_ : Shape := ⟨0, ![]⟩
abbrev S50000x1 : Shape := ⟨2, ![50000, 1]⟩
abbrev S1x128 : Shape := ⟨2, ![1, 128]⟩
abbrev S1x64 : Shape := ⟨2, ![1, 64]⟩
abbrev S50000x128 : Shape := ⟨2, ![50000, 128]⟩
abbrev S5000x92 : Shape := ⟨2, ![5000, 92]⟩
abbrev S5000x1 : Shape := ⟨2, ![5000, 1]⟩
abbrev S5000x128 : Shape := ⟨2, ![5000, 128]⟩
abbrev S1600000x128 : Shape := ⟨2, ![1600000, 128]⟩
abbrev S50000x64 : Shape := ⟨2, ![50000, 64]⟩
abbrev S5000x64 : Shape := ⟨2, ![5000, 64]⟩
abbrev S1600000x64 : Shape := ⟨2, ![1600000, 64]⟩
abbrev S1000 : Shape := ⟨1, ![1000]⟩
abbrev S1000x64 : Shape := ⟨2, ![1000, 64]⟩
abbrev S1000x1 : Shape := ⟨2, ![1000, 1]⟩

abbrev nBuf : Space → Nat
  | .hbm => 92
  | .vmem => 34
  | .smem => 0
  | _ => 0

abbrev bufTy : (tb : Table) → Fin (tcTables nBuf tb) → BufTy
  | .hbm, ⟨0, _⟩ => ⟨S50000x92, .f32⟩
  | .hbm, ⟨1, _⟩ => ⟨S1600000x3, .f32⟩
  | .hbm, ⟨2, _⟩ => ⟨S1600000, .i32⟩
  | .hbm, ⟨3, _⟩ => ⟨S1600000, .i32⟩
  | .hbm, ⟨4, _⟩ => ⟨S50000, .i32⟩
  | .hbm, ⟨5, _⟩ => ⟨S92x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1600000x1, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S1x128, .f32⟩
  | .hbm, ⟨39, _⟩ => ⟨S1x128, .f32⟩
  | .hbm, ⟨40, _⟩ => ⟨S1x64, .f32⟩
  | .hbm, ⟨41, _⟩ => ⟨S50000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S50000x128, .f32⟩
  | .hbm, ⟨58, _⟩ => ⟨S50000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S50000x64, .f32⟩
  | .hbm, ⟨72, _⟩ => ⟨S1600000x1, .i32⟩
  | .hbm, ⟨73, _⟩ => ⟨S50000x64, .f32⟩
  | .hbm, ⟨74, _⟩ => ⟨S50000x64, .f32⟩
  | .hbm, ⟨75, _⟩ => ⟨S_, .f32⟩
  | .hbm, ⟨76, _⟩ => ⟨S50000, .f32⟩
  | .hbm, ⟨77, _⟩ => ⟨S_, .f32⟩
  | .hbm, ⟨78, _⟩ => ⟨S1000, .f32⟩
  | .hbm, ⟨79, _⟩ => ⟨S50000x1, .i32⟩
  | .hbm, ⟨80, _⟩ => ⟨S1000, .f32⟩
  | .hbm, ⟨81, _⟩ => ⟨S_, .f32⟩
  | .hbm, ⟨82, _⟩ => ⟨S_, .f32⟩
  | .hbm, ⟨83, _⟩ => ⟨S1000, .f32⟩
  | .hbm, ⟨84, _⟩ => ⟨S1000, .f32⟩
  | .hbm, ⟨85, _⟩ => ⟨S_, .f32⟩
  | .hbm, ⟨86, _⟩ => ⟨S1000x64, .f32⟩
  | .hbm, ⟨87, _⟩ => ⟨S50000x1, .i32⟩
  | .hbm, ⟨88, _⟩ => ⟨S1000x64, .f32⟩
  | .hbm, ⟨89, _⟩ => ⟨S1000x1, .f32⟩
  | .hbm, ⟨90, _⟩ => ⟨S1000x64, .f32⟩
  | .hbm, ⟨91, _⟩ => ⟨S1000x64, .f32⟩
  | .local _ .vmem, ⟨0, _⟩ => ⟨S8000x3, .f32⟩
  | .local _ .vmem, ⟨1, _⟩ => ⟨S8000x3, .f32⟩
  | .local _ .vmem, ⟨2, _⟩ => ⟨S8000x1, .f32⟩
  | .local _ .vmem, ⟨3, _⟩ => ⟨S8000x1, .f32⟩
  | .local _ .vmem, ⟨4, _⟩ => ⟨S5000x92, .f32⟩
  | .local _ .vmem, ⟨5, _⟩ => ⟨S5000x92, .f32⟩
  | .local _ .vmem, ⟨6, _⟩ => ⟨S92x128, .f32⟩
  | .local _ .vmem, ⟨7, _⟩ => ⟨S1x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S50000x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_call2_v0 : Ref sig .tc := ⟨.hbm, 82, rfl⟩
abbrev main_call2_v1 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x92 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S92x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S8000x3_S8000x3_0_0 : ∀ a, (![0, 0] : Fin 2 → Nat) a + S8000x3.size a ≤ S8000x3.size a
  h_S8000x3 : 0 < S8000x3.numel
  reduces_S8000x3_S8000 : S8000x3.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  shapeCasts_S128_S1x128 : S128.ShapeCasts S1x128
  shapeCasts_S64_S1x64 : S64.ShapeCasts S1x64
  inb_S5000x92_S5000x92_0_0 : ∀ a, (![0, 0] : Fin 2 → Nat) a + S5000x92.size a ≤ S5000x92.size a
  h_S5000x92 : 0 < S5000x92.numel
  bitsLt_bf16_f32 : FTy.bits .bf16 < FTy.bits .f32
  inb_S92x128_S92x128_0_0 : ∀ a, (![0, 0] : Fin 2 → Nat) a + S92x128.size a ≤ S92x128.size a
  h_S92x128 : 0 < S92x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1000 : S_.BroadcastsInDim S1000 (![] : Fin 0 → Fin S1000.rank)
  bcast_S50000_S50000x1_0 : S50000.BroadcastsInDim S50000x1 (![0] : Fin 1 → Fin S50000x1.rank)
  bcast_S_S1000x64 : S_.BroadcastsInDim S1000x64 (![] : Fin 0 → Fin S1000x64.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  scatter_S50000_S1600000x1_S1600000_n_0_0_1_wf : ScatterDims.WF S50000 S1600000x1 S1600000 [] [0] [0] 1
  dot_S5000x92_S92x128_S5000x128_1_0_0_1_n_n_wf : DotDims.WF S5000x92 S92x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S1000_S50000x1_S50000_n_0_0_1_wf : ScatterDims.WF S1000 S50000x1 S50000 [] [0] [0] 1
  scatter_S1000x64_S50000x1_S50000x64_1_0_0_1_wf : ScatterDims.WF S1000x64 S50000x1 S50000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1600000x3.size a
  hwx0_0 : ∀ i : grid0.Coords, EltTy.bits .f32 = 32 ∨ (Rect.block (s := S1600000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1600000x1.size a
  hwx0_1 : ∀ i : grid0.Coords, EltTy.bits .f32 = 32 ∨ (Rect.block (s := S1600000x1) S8000x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x92.size a ≤ S50000x92.size a
  hwx1_0 : ∀ i : grid1.Coords, EltTy.bits .f32 = 32 ∨ (Rect.block (s := S50000x92) S5000x92.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S92x128.size a ≤ S92x128.size a
  hwx1_1 : ∀ i : grid1.Coords, EltTy.bits .f32 = 32 ∨ (Rect.block (s := S92x128) S92x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x92_S92x128_S5000x128_1_0_0_1_n_n : DotDims S5000x92 S92x128 S5000x128 where
  lhsContracting := [1]
  rhsContracting := [0]
  lhsNonContracting := [0]
  rhsNonContracting := [1]
  lhsBatch := []
  rhsBatch := []
  wf := dot_S5000x92_S92x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf

abbrev win0_0 : Pipeline.Window sig grid0 :=
  Pipeline.Window.ofSpec (Memref.whole main_arg1) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x92.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S92x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x92 : Shape := ⟨2, ![50000, 92]⟩
abbrev S1600000x3 : Shape := ⟨2, ![1600000, 3]⟩
abbrev S1600000 : Shape := ⟨1, ![1600000]⟩
abbrev S50000 : Shape := ⟨1, ![50000]⟩
abbrev S92x128 : Shape := ⟨2, ![92, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S50000x128 : Shape := ⟨2, ![50000, 128]⟩
abbrev S1x128 : Shape := ⟨2, ![1, 128]⟩
abbrev S50000x1 : Shape := ⟨2, ![50000, 1]⟩
abbrev S1600000x128 : Shape := ⟨2, ![1600000, 128]⟩
abbrev S50000x64 : Shape := ⟨2, ![50000, 64]⟩
abbrev S1600000x64 : Shape := ⟨2, ![1600000, 64]⟩
abbrev S1x64 : Shape := ⟨2, ![1, 64]⟩
abbrev S1000 : Shape := ⟨1, ![1000]⟩
abbrev S1000x64 : Shape := ⟨2, ![1000, 64]⟩
abbrev S1000x1 : Shape := ⟨2, ![1000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x92, .f32⟩
  | .hbm, ⟨1, _⟩ => ⟨S1600000x3, .f32⟩
  | .hbm, ⟨2, _⟩ => ⟨S1600000, .i32⟩
  | .hbm, ⟨3, _⟩ => ⟨S1600000, .i32⟩
  | .hbm, ⟨4, _⟩ => ⟨S50000, .i32⟩
  | .hbm, ⟨5, _⟩ => ⟨S92x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1600000x3, .f32⟩
  | .hbm, ⟨12, _⟩ => ⟨S_, .f32⟩
  | .hbm, ⟨13, _⟩ => ⟨S1600000, .f32⟩
  | .hbm, ⟨14, _⟩ => ⟨S1600000, .f32⟩
  | .hbm, ⟨15, _⟩ => ⟨S_, .f32⟩
  | .hbm, ⟨16, _⟩ => ⟨S1600000, .f32⟩
  | .hbm, ⟨17, _⟩ => ⟨S1600000, .f32⟩
  | .hbm, ⟨18, _⟩ => ⟨S1600000, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S1600000x1, .i32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x1, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x64, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x64, .f32⟩
  | .hbm, ⟨89, _⟩ => ⟨S1600000x1, .f32⟩
  | .hbm, ⟨90, _⟩ => ⟨S1600000x64, .f32⟩
  | .hbm, ⟨91, _⟩ => ⟨S1600000x64, .f32⟩
  | .hbm, ⟨92, _⟩ => ⟨S_, .f32⟩
  | .hbm, ⟨93, _⟩ => ⟨S50000x64, .f32⟩
  | .hbm, ⟨94, _⟩ => ⟨S1600000x1, .i32⟩
  | .hbm, ⟨95, _⟩ => ⟨S50000x64, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S1000, .f32⟩
  | .hbm, ⟨106, _⟩ => ⟨S50000x1, .i32⟩
  | .hbm, ⟨107, _⟩ => ⟨S1000, .f32⟩
  | .hbm, ⟨108, _⟩ => ⟨S_, .f32⟩
  | .hbm, ⟨109, _⟩ => ⟨S_, .f32⟩
  | .hbm, ⟨110, _⟩ => ⟨S1000, .f32⟩
  | .hbm, ⟨111, _⟩ => ⟨S1000, .f32⟩
  | .hbm, ⟨112, _⟩ => ⟨S_, .f32⟩
  | .hbm, ⟨113, _⟩ => ⟨S1000x64, .f32⟩
  | .hbm, ⟨114, _⟩ => ⟨S50000x1, .i32⟩
  | .hbm, ⟨115, _⟩ => ⟨S1000x64, .f32⟩
  | .hbm, ⟨116, _⟩ => ⟨S1000x1, .f32⟩
  | .hbm, ⟨117, _⟩ => ⟨S1000x64, .f32⟩
  | .hbm, ⟨118, _⟩ => ⟨S1000x64, .f32⟩
  | _, _ => ⟨S50000x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_cst_7 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call2_cst : Ref sig .tc := ⟨.hbm, 73, rfl⟩
abbrev main_call2_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_call3_v0 : Ref sig .tc := ⟨.hbm, 109, rfl⟩
abbrev main_call3_v1 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩

abbrev nD : Nat := 1
abbrev τ : Topo := Topo.v7x

variable {F : FTy → Type} [FloatOps F]

class Facts₀ : Prop where
  reducesTo_S1600000x3_S1600000_d1 : S1600000x3.ReducesTo [1] S1600000
  h_S_ : 0 < S_.numel
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1000 : S_.BroadcastsInDim S1000 (![] : Fin 0 → Fin S1000.rank)
  bcast_S_S1000x64 : S_.BroadcastsInDim S1000x64 (![] : Fin 0 → Fin S1000x64.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  scatter_S50000_S1600000x1_S1600000_n_0_0_1_wf : ScatterDims.WF S50000 S1600000x1 S1600000 [] [0] [0] 1
  dot_S50000x92_S92x128_S50000x128_1_0_0_1_n_n_wf : DotDims.WF S50000x92 S92x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S1000_S50000x1_S50000_n_0_0_1_wf : ScatterDims.WF S1000 S50000x1 S50000 [] [0] [0] 1
  scatter_S1000x64_S50000x1_S50000x64_1_0_0_1_wf : ScatterDims.WF S1000x64 S50000x1 S50000x64 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x92_S92x128_S50000x128_1_0_0_1_n_n : DotDims S50000x92 S92x128 S50000x128 where
  lhsContracting := [1]
  rhsContracting := [0]
  lhsNonContracting := [0]
  rhsNonContracting := [1]
  lhsBatch := []
  rhsBatch := []
  wf := dot_S50000x92_S92x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf

class Facts : Prop extends Facts₀ where

variable [Facts]
-- ==== Proof.KRun.lean ====
/-
  The idealized kernel's run with its result NAMED.  Every weakly fair execution of @main terminates without a fault, the
  eleven argument arrays end as launched, and the result array [1000, 64] ends at the contents the last boundary of the
  program holds for it: @main is fifteen segments — five pallas_calls among ten stretches of host operations — and the
  contents of every unscoped buffer at each boundary are a fold from the launch memory (a stretch applies its operations,
  a pallas_call replaces its arrays by what its write-backs leave).  The launch argument is the frame's, with the result
  buffer read off the last boundary beside the arguments.
-/
import proofs.«102298_j76175539961908_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its fifteen segments: the result array at the last boundary's contents, the arguments as launched. -/
theorem run_named : θ_run defs (onTc (τ := τ) (main (F := F))) ⟨m, fun _ => 0, ρ⟩ (fun r => ∀ c : Dev nD,
      r.2.mem ((c.tc : Thread nD τ).loc main_v57) = W15 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v57 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.Gen

end
-- ==== Proof.KHost.lean ====
/-
  The host side of the idealized kernel, stretch by stretch, as pure functions of the buffers a stretch reads.

  Between its five pallas_calls @main runs plain array operations: the two degree counts (a scatter-add of ones over the
  edges' source, resp. target, nodes), clamped below at one and raised to the power -1/2, laid as columns [N, 1]; the three
  bias vectors laid as rows [1, w]; per layer the message passing — gather the rows of the node table at the edges' sources
  (a negative index wrapped by N first), scale row e by the weight of edge e, and scatter-add into the rows of the edges'
  targets —; and at the end the mean over each graph's nodes — a scatter-add of the rows into their graph's row, over the
  graph's node count clamped below at one.  Each lemma reads one buffer that a stretch writes, after the stretch, from ANY contents before it.
-/
import proofs.«102298_j76175539961908_2_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- Every node's degree scale: (max 1 (the number of edges whose end `idx` is the node)) ^ (-1/2). -/
def degScale (idx : (⟨S1600000, .i32⟩ : BufTy).Contents (Elt F)) : (⟨S50000, .f32⟩ : BufTy).Contents (Elt F) :=
  Host.powf
    (maximumf (broadcastInDim S50000 ![] bcast_S_S50000 (id (constant S_ .f32 0x3F800000#32)))
      (Host.scatterAdd scatter_S50000_S1600000x1_S1600000_n_0_0_1
        (broadcastInDim S50000 ![] bcast_S_S50000 (constant S_ .f32 0x00000000#32))
        (broadcastInDim S1600000x1 ![0] bcast_S1600000_S1600000x1_0 idx)
        (broadcastInDim S1600000 ![] bcast_S_S1600000 (constant S_ .f32 0x3F800000#32))))
    (broadcastInDim S50000 ![] bcast_S_S50000 (constant S_ .f32 0xBF000000#32))

/-- A vector over the nodes laid as a column [N, 1]. -/
def col (x : (⟨S50000, .f32⟩ : BufTy).Contents (Elt F)) : (⟨S50000x1, .f32⟩ : BufTy).Contents (Elt F) :=
  fun i => shapeCast S50000x1 x shapeCasts_S50000_S50000x1 i

/-- A vector of 128 entries laid as a row [1, 128]. -/
def row128 (x : (⟨S128, .f32⟩ : BufTy).Contents (Elt F)) : (⟨S1x128, .f32⟩ : BufTy).Contents (Elt F) :=
  fun i => shapeCast S1x128 x shapeCasts_S128_S1x128 i

/-- A vector of 64 entries laid as a row [1, 64]. -/
def row64 (x : (⟨S64, .f32⟩ : BufTy).Contents (Elt F)) : (⟨S1x64, .f32⟩ : BufTy).Contents (Elt F) :=
  fun i => shapeCast S1x64 x shapeCasts_S64_S1x64 i

/-- One round of message passing at width 128: row e of the messages is row src(e) of `h` times the weight of edge e, and
    node n's aggregate is the sum of the messages of the edges with dst(e) = n. -/
def agg128 (h : (⟨S50000x128, .f32⟩ : BufTy).Contents (Elt F)) (src dst : (⟨S1600000, .i32⟩ : BufTy).Contents (Elt F)) (ew : (⟨S1600000x1, .f32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (mulf
      (Host.gather gather_S50000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src)))
      (broadcastInDim S1600000x128 ![0, 1] bcast_S1600000x1_S1600000x128_0_1 ew))

/-- The same round at width 64. -/
def agg64 (h : (⟨S50000x64, .f32⟩ : BufTy).Contents (Elt F)) (src dst : (⟨S1600000, .i32⟩ : BufTy).Contents (Elt F)) (ew : (⟨S1600000x1, .f32⟩ : BufTy).Contents (Elt F)) : (⟨S50000x64, .f32⟩ : BufTy).Contents (Elt F) :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (mulf
      (Host.gather gather_S50000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src)))
      (broadcastInDim S1600000x64 ![0, 1] bcast_S1600000x1_S1600000x64_0_1 ew))

/-- The mean of the node rows over each graph: the rows summed into their graph's row, over the graph's node count clamped
    below at one. -/
def pool (x : (⟨S50000x64, .f32⟩ : BufTy).Contents (Elt F)) (gid : (⟨S50000, .i32⟩ : BufTy).Contents (Elt F)) : (⟨S1000x64, .f32⟩ : BufTy).Contents (Elt F) :=
  Host.divf
    (Host.scatterAdd scatter_S1000x64_S50000x1_S50000x64_1_0_0_1
      (broadcastInDim S1000x64 ![] bcast_S_S1000x64 (constant S_ .f32 0x00000000#32))
      (broadcastInDim S50000x1 ![0] bcast_S50000_S50000x1_0 gid) x)
    (broadcastInDim S1000x64 ![0, 1] bcast_S1000x1_S1000x64_0_1
      (broadcastInDim S1000x1 ![0] bcast_S1000_S1000x1_0
        (maximumf (broadcastInDim S1000 ![] bcast_S_S1000 (id (constant S_ .f32 0x3F800000#32)))
          (Host.scatterAdd scatter_S1000_S50000x1_S50000_n_0_0_1
            (broadcastInDim S1000 ![] bcast_S_S1000 (constant S_ .f32 0x00000000#32))
            (broadcastInDim S50000x1 ![0] bcast_S50000_S50000x1_0 gid)
            (broadcastInDim S50000 ![] bcast_S_S50000 (constant S_ .f32 0x3F800000#32))))))

/-! ## Between the edge-weight call and the embedding call: five stretches -/

/-- The buffer contents after the five stretches, from contents `W`. -/
abbrev H1 (W : Valuation τ sig (Elt F)) : Valuation τ sig (Elt F) :=
  StableHlo.after hostOps1_4 (StableHlo.after hostOps1_3 (StableHlo.after hostOps1_2 (StableHlo.after hostOps1_1 (StableHlo.after hostOps1 W))))

theorem H1_v12 (W : Valuation τ sig (Elt F)) :
    H1 W (Proc.devRef .tc main_v12) = col (degScale (W (Proc.devRef .tc main_arg2))) := by
  dsimp only [H1]; after_results_simp; rfl
theorem H1_v15 (W : Valuation τ sig (Elt F)) :
    H1 W (Proc.devRef .tc main_v15) = col (degScale (W (Proc.devRef .tc main_arg3))) := by
  dsimp only [H1]; after_results_simp; rfl
theorem H1_v16 (W : Valuation τ sig (Elt F)) :
    H1 W (Proc.devRef .tc main_v16) = row128 (W (Proc.devRef .tc main_arg6)) := by
  dsimp only [H1]; after_results_simp; rfl
theorem H1_v17 (W : Valuation τ sig (Elt F)) :
    H1 W (Proc.devRef .tc main_v17) = row128 (W (Proc.devRef .tc main_arg8)) := by
  dsimp only [H1]; after_results_simp; rfl
theorem H1_v18 (W : Valuation τ sig (Elt F)) :
    H1 W (Proc.devRef .tc main_v18) = row64 (W (Proc.devRef .tc main_arg10)) := by
  dsimp only [H1]; after_results_simp; rfl

/-! ## Between the embedding call and the first layer's call -/

theorem H2_v31 (W : Valuation τ sig (Elt F)) :
    StableHlo.after hostOps2 W (Proc.devRef .tc main_v31)
      = agg128 (W (Proc.devRef .tc main_v19)) (W (Proc.devRef .tc main_arg2)) (W (Proc.devRef .tc main_arg3)) (W (Proc.devRef .tc main_v0)) := by
  after_results_simp; rfl

/-! ## Between the second layer's two calls -/

theorem H4_v45 (W : Valuation τ sig (Elt F)) :
    StableHlo.after hostOps4 W (Proc.devRef .tc main_v45)
      = agg64 (W (Proc.devRef .tc main_v33)) (W (Proc.devRef .tc main_arg2)) (W (Proc.devRef .tc main_arg3)) (W (Proc.devRef .tc main_v0)) := by
  after_results_simp; rfl

/-! ## After the last call: three stretches -/

/-- The buffer contents after the three stretches, from contents `W`. -/
abbrev H5 (W : Valuation τ sig (Elt F)) : Valuation τ sig (Elt F) :=
  StableHlo.after hostOps5_2 (StableHlo.after hostOps5_1 (StableHlo.after hostOps5 W))

theorem H5_v57 (W : Valuation τ sig (Elt F)) :
    H5 W (Proc.devRef .tc main_v57) = pool (W (Proc.devRef .tc main_v46)) (W (Proc.devRef .tc main_arg4)) := by
  dsimp only [H5]; after_results_simp; rfl

end Cert.KernelIdeal.KHost

end
-- ==== Proof.KKeep.lean ====
/-
  What a stretch of host operations leaves alone: a buffer that none of the stretch's operations names as its result holds
  after the stretch what it held before, whatever that was.  One lemma per stretch (the five between the edge-weight call and
  the embedding call taken together) and per buffer that is still read later.
-/
import proofs.«102298_j76175539961908_2_alg».proof.Proof.KHost

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

theorem H1_main_v0 (W : Valuation τ sig (Elt F)) :
    H1 W (Proc.devRef .tc main_v0) = W (Proc.devRef .tc main_v0) := by
  dsimp only [H1]; after_results_simp
theorem H1_main_arg0 (W : Valuation τ sig (Elt F)) :
    H1 W (Proc.devRef .tc main_arg0) = W (Proc.devRef .tc main_arg0) := by
  dsimp only [H1]; after_results_simp
theorem H1_main_arg2 (W : Valuation τ sig (Elt F)) :
    H1 W (Proc.devRef .tc main_arg2) = W (Proc.devRef .tc main_arg2) := by
  dsimp only [H1]; after_results_simp
theorem H1_main_arg3 (W : Valuation τ sig (Elt F)) :
    H1 W (Proc.devRef .tc main_arg3) = W (Proc.devRef .tc main_arg3) := by
  dsimp only [H1]; after_results_simp
theorem H1_main_arg4 (W : Valuation τ sig (Elt F)) :
    H1 W (Proc.devRef .tc main_arg4) = W (Proc.devRef .tc main_arg4) := by
  dsimp only [H1]; after_results_simp
theorem H1_main_arg5 (W : Valuation τ sig (Elt F)) :
    H1 W (Proc.devRef .tc main_arg5) = W (Proc.devRef .tc main_arg5) := by
  dsimp only [H1]; after_results_simp
theorem H1_main_arg7 (W : Valuation τ sig (Elt F)) :
    H1 W (Proc.devRef .tc main_arg7) = W (Proc.devRef .tc main_arg7) := by
  dsimp only [H1]; after_results_simp
theorem H1_main_arg9 (W : Valuation τ sig (Elt F)) :
    H1 W (Proc.devRef .tc main_arg9) = W (Proc.devRef .tc main_arg9) := by
  dsimp only [H1]; after_results_simp

theorem H2_main_v0 (W : Valuation τ sig (Elt F)) :
    StableHlo.after hostOps2 W (Proc.devRef .tc main_v0) = W (Proc.devRef .tc main_v0) := by
  after_results_simp
theorem H2_main_v12 (W : Valuation τ sig (Elt F)) :
    StableHlo.after hostOps2 W (Proc.devRef .tc main_v12) = W (Proc.devRef .tc main_v12) := by
  after_results_simp
theorem H2_main_v15 (W : Valuation τ sig (Elt F)) :
    StableHlo.after hostOps2 W (Proc.devRef .tc main_v15) = W (Proc.devRef .tc main_v15) := by
  after_results_simp
theorem H2_main_v17 (W : Valuation τ sig (Elt F)) :
    StableHlo.after hostOps2 W (Proc.devRef .tc main_v17) = W (Proc.devRef .tc main_v17) := by
  after_results_simp
theorem H2_main_v18 (W : Valuation τ sig (Elt F)) :
    StableHlo.after hostOps2 W (Proc.devRef .tc main_v18) = W (Proc.devRef .tc main_v18) := by
  after_results_simp
theorem H2_main_arg2 (W : Valuation τ sig (Elt F)) :
    StableHlo.after hostOps2 W (Proc.devRef .tc main_arg2) = W (Proc.devRef .tc main_arg2) := by
  after_results_simp
theorem H2_main_arg3 (W : Valuation τ sig (Elt F)) :
    StableHlo.after hostOps2 W (Proc.devRef .tc main_arg3) = W (Proc.devRef .tc main_arg3) := by
  after_results_simp
theorem H2_main_arg4 (W : Valuation τ sig (Elt F)) :
    StableHlo.after hostOps2 W (Proc.devRef .tc main_arg4) = W (Proc.devRef .tc main_arg4) := by
  after_results_simp
theorem H2_main_arg7 (W : Valuation τ sig (Elt F)) :
    StableHlo.after hostOps2 W (Proc.devRef .tc main_arg7) = W (Proc.devRef .tc main_arg7) := by
  after_results_simp
theorem H2_main_arg9 (W : Valuation τ sig (Elt F)) :
    StableHlo.after hostOps2 W (Proc.devRef .tc main_arg9) = W (Proc.devRef .tc main_arg9) := by
  after_results_simp

theorem H4_main_v15 (W : Valuation τ sig (Elt F)) :
    StableHlo.after hostOps4 W (Proc.devRef .tc main_v15) = W (Proc.devRef .tc main_v15) := by
  after_results_simp
theorem H4_main_v18 (W : Valuation τ sig (Elt F)) :
    StableHlo.after hostOps4 W (Proc.devRef .tc main_v18) = W (Proc.devRef .tc main_v18) := by
  after_results_simp
theorem H4_main_arg4 (W : Valuation τ sig (Elt F)) :
    StableHlo.after hostOps4 W (Proc.devRef .tc main_arg4) = W (Proc.devRef .tc main_arg4) := by
  after_results_simp

end Cert.KernelIdeal.KHost

end
-- ==== Proof.Stages.lean ====
/-
  The five dense stages of the two-layer graph convolution, each as ONE function of whole arrays, element by element,
  on the extended reals.  With N = 50000 nodes and E = 1600000 edges:

  * `edgeW`   — the weight of edge e:  exp (-(∑ₖ r(e,k)²) / 64), kept as a column [E, 1];
  * `embed`   — row n of the scaled embedding:  (∑ₖ a(n,k) · W₀(k,j) + b₀(j)) · s(n);
  * `conv1`   — the first layer after aggregation:  max (∑ₖ (g(n,k) · d(n)) · W₁(k,j) + b₁(j)) 0;
  * `pre2`    — the second layer before aggregation:  ∑ₖ (x(n,k) · s(n)) · W₂(k,j);
  * `post2`   — the second layer after aggregation:  g(n,j) · d(n) + b₂(j).

  Every stage reads row n of its inputs only, so computing it tile of rows by tile of rows, or all rows at once, gives the
  same array; a bias is a row [1, w], a per-node scale a column [N, 1].
-/
import Idealize.ShloMosaic.PureOps.Ideal
import Idealize.ShloMosaic.Lib.ValueIdx

noncomputable section

namespace Cert.Stages

open Idealize.ShloMosaic Idealize.ShloMosaic.ValueIdx

/-- An array of extended reals over the literal shape [a, b]. -/
abbrev Arr2 (a b : Nat) : Type := (⟨2, ![a, b]⟩ : Shape).Idx → EReal

/-- The weight of edge `i 0`: the exponential of minus the squared length of its 3-vector over 64 (= 8²). -/
def edgeW (r : Arr2 1600000 3) : Arr2 1600000 1 := fun i =>
  Ideal.exp (Ideal.div (-(∑ k : Fin 3, r (ix2 (i 0) k) * r (ix2 (i 0) k))) (Ideal.ofBits .f32 0x42800000#32))

/-- Row `i 0` of the embedding (features times weights plus the bias row), scaled by the node's factor. -/
def embed (a : Arr2 50000 92) (w : Arr2 92 128) (b : Arr2 1 128) (s : Arr2 50000 1) : Arr2 50000 128 := fun i =>
  ((∑ k : Fin 92, a (ix2 (i 0) k) * w (ix2 k (i 1))) + b (ix2 0 (i 1))) * s (ix2 (i 0) 0)

/-- The first layer after aggregation: the aggregate scaled by the node's factor, times the weights, plus the bias row,
    clamped below at zero. -/
def conv1 (g : Arr2 50000 128) (d : Arr2 50000 1) (w : Arr2 128 128) (b : Arr2 1 128) : Arr2 50000 128 := fun i =>
  max ((∑ k : Fin 128, (g (ix2 (i 0) k) * d (ix2 (i 0) 0)) * w (ix2 k (i 1))) + b (ix2 0 (i 1))) 0

/-- The second layer before aggregation: the activations scaled by the node's factor, times the weights. -/
def pre2 (x : Arr2 50000 128) (s : Arr2 50000 1) (w : Arr2 128 64) : Arr2 50000 64 := fun i =>
  ∑ k : Fin 128, (x (ix2 (i 0) k) * s (ix2 (i 0) 0)) * w (ix2 k (i 1))

/-- The second layer after aggregation: the aggregate scaled by the node's factor, plus the bias row. -/
def post2 (g : Arr2 50000 64) (d : Arr2 50000 1) (b : Arr2 1 64) : Arr2 50000 64 := fun i =>
  g i * d (ix2 (i 0) 0) + b (ix2 0 (i 1))

end Cert.Stages

end
-- ==== Proof.KVal.lean ====
/-
  What the idealized kernel computes, as ONE function of its eleven arguments, built from the five dense stages
  (edge weights, embedding, the first layer after aggregation, the second layer before and after aggregation) and the
  host side between them (degree scales, bias rows, two rounds of message passing, the mean over each graph):

    s = scale of the source degrees,  d = scale of the target degrees,  w = the edge weights,
    h  = embed a W₀ b₀ s,            g  = aggregate h along the edges with w,
    x  = conv1 g d W₁ b₁,            h' = pre2 x s W₂,
    g' = aggregate h' along the edges with w,
    y  = post2 g' d b₂,              result = mean of y over each graph.
-/
import proofs.«102298_j76175539961908_2_alg».proof.Proof.KHost
import proofs.«102298_j76175539961908_2_alg».proof.Proof.Stages

noncomputable section

namespace Cert.KernelIdeal.KVal

open Cert.KernelIdeal Idealize.ShloMosaic Cert.KernelIdeal.KHost

/-- The degree scale of every node as a column, from the edges' ends `a`. -/
def kScale (a : (⟨S1600000, .i32⟩ : BufTy).Contents (Elt Ideal)) : (⟨S50000x1, .f32⟩ : BufTy).Contents (Elt Ideal) :=
  col (degScale (F := Ideal) a)

/-- The scaled embedding of every node. -/
def kHS (a0 : (⟨S50000x92, .f32⟩ : BufTy).Contents (Elt Ideal)) (a2 : (⟨S1600000, .i32⟩ : BufTy).Contents (Elt Ideal)) (a5 : (⟨S92x128, .f32⟩ : BufTy).Contents (Elt Ideal)) (a6 : (⟨S128, .f32⟩ : BufTy).Contents (Elt Ideal)) : (⟨S50000x128, .f32⟩ : BufTy).Contents (Elt Ideal) :=
  Cert.Stages.embed a0 a5 (row128 (F := Ideal) a6) (kScale a2)

/-- The first round's aggregate. -/
def kAGG (a0 : (⟨S50000x92, .f32⟩ : BufTy).Contents (Elt Ideal)) (a1 : (⟨S1600000x3, .f32⟩ : BufTy).Contents (Elt Ideal)) (a2 a3 : (⟨S1600000, .i32⟩ : BufTy).Contents (Elt Ideal)) (a5 : (⟨S92x128, .f32⟩ : BufTy).Contents (Elt Ideal)) (a6 : (⟨S128, .f32⟩ : BufTy).Contents (Elt Ideal)) : (⟨S50000x128, .f32⟩ : BufTy).Contents (Elt Ideal) :=
  agg128 (F := Ideal) (kHS a0 a2 a5 a6) a2 a3 (Cert.Stages.edgeW a1)

/-- The first layer's activations. -/
def kX (a0 : (⟨S50000x92, .f32⟩ : BufTy).Contents (Elt Ideal)) (a1 : (⟨S1600000x3, .f32⟩ : BufTy).Contents (Elt Ideal)) (a2 a3 : (⟨S1600000, .i32⟩ : BufTy).Contents (Elt Ideal)) (a5 : (⟨S92x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) : (⟨S50000x128, .f32⟩ : BufTy).Contents (Elt Ideal) :=
  Cert.Stages.conv1 (kAGG a0 a1 a2 a3 a5 a6) (kScale a3) a7 (row128 (F := Ideal) a8)

/-- The second layer's projected rows. -/
def kHS2 (a0 : (⟨S50000x92, .f32⟩ : BufTy).Contents (Elt Ideal)) (a1 : (⟨S1600000x3, .f32⟩ : BufTy).Contents (Elt Ideal)) (a2 a3 : (⟨S1600000, .i32⟩ : BufTy).Contents (Elt Ideal)) (a5 : (⟨S92x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x64, .f32⟩ : BufTy).Contents (Elt Ideal)) : (⟨S50000x64, .f32⟩ : BufTy).Contents (Elt Ideal) :=
  Cert.Stages.pre2 (kX a0 a1 a2 a3 a5 a6 a7 a8) (kScale a2) a9

/-- The second round's aggregate. -/
def kAGG2 (a0 : (⟨S50000x92, .f32⟩ : BufTy).Contents (Elt Ideal)) (a1 : (⟨S1600000x3, .f32⟩ : BufTy).Contents (Elt Ideal)) (a2 a3 : (⟨S1600000, .i32⟩ : BufTy).Contents (Elt Ideal)) (a5 : (⟨S92x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x64, .f32⟩ : BufTy).Contents (Elt Ideal)) : (⟨S50000x64, .f32⟩ : BufTy).Contents (Elt Ideal) :=
  agg64 (F := Ideal) (kHS2 a0 a1 a2 a3 a5 a6 a7 a8 a9) a2 a3 (Cert.Stages.edgeW a1)

/-- The second layer's result per node. -/
def kX2 (a0 : (⟨S50000x92, .f32⟩ : BufTy).Contents (Elt Ideal)) (a1 : (⟨S1600000x3, .f32⟩ : BufTy).Contents (Elt Ideal)) (a2 a3 : (⟨S1600000, .i32⟩ : BufTy).Contents (Elt Ideal)) (a5 : (⟨S92x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) : (⟨S50000x64, .f32⟩ : BufTy).Contents (Elt Ideal) :=
  Cert.Stages.post2 (kAGG2 a0 a1 a2 a3 a5 a6 a7 a8 a9) (kScale a3) (row64 (F := Ideal) a10)

/-- The kernel's result: the mean of the per-node result over each graph. -/
def kOUT (a0 : (⟨S50000x92, .f32⟩ : BufTy).Contents (Elt Ideal)) (a1 : (⟨S1600000x3, .f32⟩ : BufTy).Contents (Elt Ideal)) (a2 a3 : (⟨S1600000, .i32⟩ : BufTy).Contents (Elt Ideal)) (a4 : (⟨S50000, .i32⟩ : BufTy).Contents (Elt Ideal)) (a5 : (⟨S92x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) : (⟨S1000x64, .f32⟩ : BufTy).Contents (Elt Ideal) :=
  pool (F := Ideal) (kX2 a0 a1 a2 a3 a5 a6 a7 a8 a9 a10) a4

end Cert.KernelIdeal.KVal

end
-- ==== Proof.Pay0.lean ====
import proofs.«102298_j76175539961908_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Pay0
open Cert.KernelIdeal Cert.KernelIdeal.Gen

/-- The exponential of a vector reads, at an index, the exponential of the element. -/
theorem exp_apply {s : Shape} {φ : FTy} (a : FVec Ideal s φ) (i : s.Idx) : exp a i = Ideal.exp (a i) := rfl

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows of an `[8000, 3]` array reads, at row `p`, the sum of the row's three entries. -/
theorem rowSum_apply (src : FVec Ideal S8000x3 .f32) (h : S8000x3.Reduces [1] S8000) (hφ : FKind.Formats .f32)
    (hacc : (0x00000000#32 : BitVec 32) = 0x00000000#32) (p : Fin 8000) :
    multiReduction .add [1] S8000 src 0x00000000#32 h hφ hacc (ix1 p) = ∑ k : Fin 3, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- Row p of the tile's result: exp of minus the row's sum of squares over 64. -/
theorem pay (x0 : Vec Ideal S8000x3 .f32) (p : Fin 8000) :
    k0_pay1 (F := Ideal) x0 (ix2 p 0) = Ideal.exp (Ideal.div (-(∑ k : Fin 3, x0 (ix2 p k) * x0 (ix2 p k))) (Ideal.ofBits .f32 0x42800000#32)) := by
  unfold k0_pay1
  simp only [exp_apply, divf_apply, subf_apply, broadcast_apply]
  rw [shapeCast_a_a1_apply, rowSum_apply]
  simp only [mulf_apply]
  show Ideal.exp (Ideal.div (Ideal.ofBits .f32 0x00000000#32 - _) (Ideal.ofBits .f32 0x42800000#32)) = _
  rw [Ideal.ofBits_zero_f32, zero_sub]

end Cert.KernelIdeal.Pay0

end
-- ==== Proof.Reg0.lean ====
import proofs.«102298_j76175539961908_2_alg».proof.Proof.Gen.KernelIdeal.Frame
import proofs.«102298_j76175539961908_2_alg».proof.Proof.Pay0
import proofs.«102298_j76175539961908_2_alg».proof.Proof.Stages
import Idealize.ShloMosaic.Lib.Pipeline.Value

noncomputable section

open Idealize.ShloMosaic Idealize.ShloMosaic.TcCoe Idealize.SL.Sem Idealize.ShloMosaic.ValueIdx

namespace Cert.KernelIdeal.Reg0
open Cert.KernelIdeal Cert.KernelIdeal.Gen

/-- A block that starts at the origin of its staging buffer has zero offsets. -/
theorem hz : (![0, 0] : Fin 2 → Nat) = fun _ => 0 :=
  funext fun a => match a with | ⟨0, _⟩ => rfl | ⟨1, _⟩ => rfl

/-- Tile `t` is block row `t` of the edge vectors and of the weight column; neither array is cut along its columns. -/
theorem tile_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What tile `t` writes back is rows `8000·t … 8000·t + 7999` of the weight column: entry `p` of the tile is the
    weight of edge `8000·t + p`, computed from row `p` of the tile of edge vectors, which is that edge's vector. -/
theorem flushed_eq (V : (c : Dev nD) → (b : Ref sig .tc) → Buf (Elt Ideal) ((c : Thread nD τ).loc b)) (c : Dev nD)
    (t : Fin cfg0.N) :
    (dat0 (F := Ideal) V c).flushed 1 t
      = ((cfg0.win 1).blk t).view.read (Elt Ideal) (Cert.Stages.edgeW (V c main_arg1)) := by
  show (cfg0.win 1).cut (grid0.coords t) ((dat0 V c).after 1 t) = _
  rw [after0_1]
  unfold out0_1
  rw [View.canon_unit_zero hz]
  simp only [View.ld_unit_zero (S := S8000x3) hz]
  obtain ⟨e0, e1, e2, e3⟩ := tile_index t
  refine funext fun (j : S8000x1.Idx) => ?_
  obtain ⟨p, q, rfl⟩ : ∃ (p : Fin 8000) (q : Fin 1), j = ix2 p q := ⟨j 0, j 1, eq_ix2 j⟩
  obtain rfl : q = 0 := Subsingleton.elim _ _
  show k0_pay1 (iblk0 V c 0 t) (ix2 p 0)
    = Cert.Stages.edgeW (V c main_arg1) (((cfg0.win 1).blk t).view.emb (ix2 p 0))
  refine (Pay0.pay (iblk0 V c 0 t) p).trans ?_
  unfold Cert.Stages.edgeW
  refine congrArg (fun s => Ideal.exp (Ideal.div (-s) (Ideal.ofBits .f32 0x42800000#32)))
    (Finset.sum_congr rfl fun k _ => ?_)
  have hrd : iblk0 V c 0 t (ix2 p k)
      = V c main_arg1 (ix2 ((((cfg0.win 1).blk t).view.emb (ix2 p 0)) 0) k) := by
    show V c main_arg1 (((cfg0.win 0).blk t).view.emb (ix2 p k)) = _
    refine congrArg (V c main_arg1) (funext fun a => Fin.ext ?_)
    match a with
    | ⟨0, _⟩ =>
      show win0_0.index t (0 : Fin 2) * 8000 + 1 * p.val = win0_1.index t (0 : Fin 2) * 8000 + 1 * p.val
      omega
    | ⟨1, _⟩ =>
      show win0_0.index t (1 : Fin 2) * 3 + 1 * k.val = k.val
      omega
  rw [hrd]

/-- An edge is in tile `t`'s block of the weight column iff its number lies in the tile's range of 8000. -/
theorem mem_tile (t : Fin cfg0.N) (i : S1600000x1.Idx) :
    i ∈ ((cfg0.win 1).blk t).view.set
      ↔ ∀ a : Fin 2, win0_1.index t a * S8000x1.size a ≤ (i a).val
          ∧ (i a).val < win0_1.index t a * S8000x1.size a + S8000x1.size a := by
  show i ∈ ((View.whole main_v0).slice (win0_1.rect t)).set ↔ _
  rw [View.set_slice_whole, Rect.mem_set_unit]
  exact Iff.rfl

/-- Every edge `e` is written by some tile: tile `e / 8000`. -/
theorem cover (i : S1600000x1.Idx) :
    ∃ t : Fin cfg0.N, (cfg0.win 1).flush t = true ∧ i ∈ ((cfg0.win 1).blk t).view.set := by
  have hi0 : (i 0).val < 1600000 := (i 0).isLt
  have hi1 : (i 1).val < 1 := (i 1).isLt
  have hN : cfg0.N = 200 := N_0
  have ht : (i 0).val / 8000 < cfg0.N := by rw [hN]; omega
  obtain ⟨e0, e1, e2, e3⟩ := tile_index ⟨(i 0).val / 8000, ht⟩
  refine ⟨⟨(i 0).val / 8000, ht⟩, flush0_1 _, ?_⟩
  rw [mem_tile]
  intro a
  match a with
  | ⟨0, _⟩ =>
    show win0_1.index ⟨(i 0).val / 8000, ht⟩ (0 : Fin 2) * 8000 ≤ (i 0).val
      ∧ (i 0).val < win0_1.index ⟨(i 0).val / 8000, ht⟩ (0 : Fin 2) * 8000 + 8000
    rw [e2]
    show (i 0).val / 8000 * 8000 ≤ (i 0).val ∧ (i 0).val < (i 0).val / 8000 * 8000 + 8000
    omega
  | ⟨1, _⟩ =>
    show win0_1.index ⟨(i 0).val / 8000, ht⟩ (1 : Fin 2) * 1 ≤ (i 1).val
      ∧ (i 1).val < win0_1.index ⟨(i 0).val / 8000, ht⟩ (1 : Fin 2) * 1 + 1
    rw [e3]
    omega

/-- After the 200 tiles of 8000 edges the weight column holds every edge's weight. -/
theorem final (V : (c : Dev nD) → (b : Ref sig .tc) → Buf (Elt Ideal) ((c : Thread nD τ).loc b)) (c : Dev nD) :
    (dat0 (F := Ideal) V c).arrAt 1 cfg0.N = Cert.Stages.edgeW (V c main_arg1) :=
  (dat0 V c).arrAt_eq_of_cover 1 _ (fun t _ => flushed_eq V c t) cover

end Cert.KernelIdeal.Reg0

end
-- ==== Proof.PayLayout.lean ====
import proofs.«102298_j76175539961908_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.PayLayout
open Cert.KernelIdeal Cert.KernelIdeal.Gen

/-! The layout steps the three dense kernel bodies share, each read at entry (p, q): a column spread over the
    columns, and a product of a tile of rows with a weight matrix accumulated from zero. -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A tile of 5000 rows of 92 features against the 92 × 128 weights, from a zero accumulator: entry (p, q) is the sum over k of row p times column q. -/
theorem matmul_92_128 (l : FVec Ideal S5000x92 .bf16) (r : FVec Ideal S92x128 .bf16) (p : Fin 5000) (q : Fin 128) :
    matmul dot_S5000x92_S92x128_S5000x128_1_0_0_1_n_n none l r (constant (F := Ideal) S5000x128 .f32 0x00000000#32) (ix2 p q)
      = ∑ k : Fin 92, l (ix2 p k) * r (ix2 k q) := by
  refine (Ideal.matmul_constant_zero_apply dot_S5000x92_S92x128_S5000x128_1_0_0_1_n_n none l r (ix2 p q)).trans ?_
  rw [← Equiv.sum_comp (ValueIdx.contrEquiv1 dot_S5000x92_S92x128_S5000x128_1_0_0_1_n_n 92 rfl rfl).symm]
  refine Finset.sum_congr rfl fun k _ => ?_
  have hk := ValueIdx.contrEquiv1_symm_val dot_S5000x92_S92x128_S5000x128_1_0_0_1_n_n 92 rfl rfl k
  have el : dot_S5000x92_S92x128_S5000x128_1_0_0_1_n_n.lhsIdx (ix2 p q) ((ValueIdx.contrEquiv1 dot_S5000x92_S92x128_S5000x128_1_0_0_1_n_n 92 rfl rfl).symm k) = ix2 p k := funext fun a => Fin.ext (by
    match a with
    | ⟨0, _⟩ =>
      show (dot_S5000x92_S92x128_S5000x128_1_0_0_1_n_n.lhsIdx (ix2 p q) _ 0).val = p.val
      unfold DotDims.lhsIdx
      rw [dif_neg (show ¬(0 : Fin S5000x92.rank) ∈ dot_S5000x92_S92x128_S5000x128_1_0_0_1_n_n.lhsBatch by decide), dif_pos (show (0 : Fin S5000x92.rank) ∈ dot_S5000x92_S92x128_S5000x128_1_0_0_1_n_n.lhsNonContracting by decide)]
      rfl
    | ⟨1, _⟩ => exact (dot_S5000x92_S92x128_S5000x128_1_0_0_1_n_n.lhsIdx_val_of_single rfl (ix2 p q) _).trans hk)
  have er : dot_S5000x92_S92x128_S5000x128_1_0_0_1_n_n.rhsIdx (ix2 p q) ((ValueIdx.contrEquiv1 dot_S5000x92_S92x128_S5000x128_1_0_0_1_n_n 92 rfl rfl).symm k) = ix2 k q := funext fun a => Fin.ext (by
    match a with
    | ⟨0, _⟩ => exact (dot_S5000x92_S92x128_S5000x128_1_0_0_1_n_n.rhsIdx_val_of_single rfl (ix2 p q) _).trans hk
    | ⟨1, _⟩ =>
      show (dot_S5000x92_S92x128_S5000x128_1_0_0_1_n_n.rhsIdx (ix2 p q) _ 1).val = q.val
      unfold DotDims.rhsIdx
      rw [dif_neg (show ¬(1 : Fin S92x128.rank) ∈ dot_S5000x92_S92x128_S5000x128_1_0_0_1_n_n.rhsBatch by decide), dif_pos (show (1 : Fin S92x128.rank) ∈ dot_S5000x92_S92x128_S5000x128_1_0_0_1_n_n.rhsNonContracting by decide)]
      rfl)
  rw [el, er]

/-- A tile of 5000 rows of 128 features against the 128 × 128 weights, from a zero accumulator: entry (p, q) is the sum over k of row p times column q. -/
theorem matmul_128_128 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- A tile of 5000 rows of 128 features against the 128 × 64 weights, from a zero accumulator: entry (p, q) is the sum over k of row p times column q. -/
theorem matmul_128_64 (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ =>
      show (dot_S5000x128_S128x64_S5000x64_1_0_0_1_n_n.lhsIdx (ix2 p q) _ 0).val = p.val
      unfold DotDims.lhsIdx
      rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
      rfl
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl (ix2 p q) _).trans hk
    | ⟨1, _⟩ =>
      show (dot_S5000x128_S128x64_S5000x64_1_0_0_1_n_n.rhsIdx (ix2 p q) _ 1).val = q.val
      unfold DotDims.rhsIdx
      rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
      rfl)
  rw [el, er]

end Cert.KernelIdeal.PayLayout

end
-- ==== Proof.Pay1.lean ====
import proofs.«102298_j76175539961908_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«102298_j76175539961908_2_alg».proof.Proof.PayLayout

noncomputable section

open Idealize.ShloMosaic Idealize.ShloMosaic.TcCoe Idealize.SL.Sem Idealize.ShloMosaic.ValueIdx

namespace Cert.KernelIdeal.Pay1
open Cert.KernelIdeal Cert.KernelIdeal.Gen

/-- Entry (p, q) of the tile's result: row p of the features against column q of the weights, plus the bias, times the row's scale. -/
theorem pay (x0 : Vec Ideal S5000x92 .f32) (x1 : Vec Ideal S92x128 .f32) (x2 : Vec Ideal S1x128 .f32) (x3 : Vec Ideal S5000x1 .f32) (p : Fin 5000) (q : Fin 128) :
    k1_pay1 (F := Ideal) x0 x1 x2 x3 (ix2 p q) = ((∑ k : Fin 92, x0 (ix2 p k) * x1 (ix2 k q)) + x2 (ix2 0 q)) * x3 (ix2 p 0) := by
  unfold k1_pay1
  -- the body, entry by entry: (product from zero + the bias row spread over the rows) times the scale column spread over the columns
  show (matmul dot_S5000x92_S92x128_S5000x128_1_0_0_1_n_n none (truncf .bf16 x0 bitsLt_bf16_f32) (truncf .bf16 x1 bitsLt_bf16_f32)
          (constant (F := Ideal) S5000x128 .f32 0x00000000#32) (ix2 p q)
        + broadcastTo S5000x128 (shapeCast S1x128 x2 shapeCasts_S1x128_S1x128) broadcasts_S1x128_S5000x128 (ix2 p q))
      * broadcastTo S5000x128 (shapeCast S5000x1 x3 shapeCasts_S5000x1_S5000x1) broadcasts_S5000x1_S5000x128 (ix2 p q) = _
  rw [shapeCast_self, shapeCast_self, PayLayout.matmul_92_128, broadcastTo_1b_ab_apply, PayLayout.broadcastTo_a1_ab_apply]
  -- rounding to the narrower format is the identity on the extended reals
  rfl

end Cert.KernelIdeal.Pay1

end
-- ==== Proof.Reg1.lean ====
import proofs.«102298_j76175539961908_2_alg».proof.Proof.Gen.KernelIdeal.Frame
import proofs.«102298_j76175539961908_2_alg».proof.Proof.Pay1
import proofs.«102298_j76175539961908_2_alg».proof.Proof.Stages
import Idealize.ShloMosaic.Lib.Pipeline.Value

noncomputable section

open Idealize.ShloMosaic Idealize.ShloMosaic.TcCoe Idealize.SL.Sem Idealize.ShloMosaic.ValueIdx

namespace Cert.KernelIdeal.Reg1
open Cert.KernelIdeal Cert.KernelIdeal.Gen

/-- The zero offsets of a whole-buffer access, spelt as the constant function. -/
theorem zeros2 : (![0, 0] : Fin 2 → Nat) = fun _ => 0 := funext fun a => by fin_cases a <;> rfl

/-- Tile `t` takes block `t` of the rows of the features, of the scale column and of the output, in their only block of
    columns; the weights and the bias row are the same single block at every tile. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row `y 0` of tile `t` of the features is row `5000·t + y 0` of the array. -/
theorem feat_blk (c : Dev nD) (t : Fin cfg1.N) (y : S5000x92.Idx) (k : S50000x92.Idx)
    (hk0 : (k 0).val = 5000 * t.val + (y 0).val) (hk1 : (k 1).val = (y 1).val) :
    (iblk1 (F := Ideal) V c 0 t : Vec Ideal S5000x92 .f32) y = (V c main_arg0 : S50000x92.Idx → EReal) k := by
  obtain ⟨e0, e1, -⟩ := idx_facts t
  unfold iblk1
  rw [View.read_apply]
  show (V c main_arg0 : S50000x92.Idx → EReal) _ = V c main_arg0 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 92 + 1 * (y 1).val = (k 1).val; rw [e1, hk1]; omega

/-- The weights' block at any tile is the whole matrix. -/
theorem wts_blk (c : Dev nD) (t : Fin cfg1.N) (y : S92x128.Idx) (k : S92x128.Idx)
    (hk0 : (k 0).val = (y 0).val) (hk1 : (k 1).val = (y 1).val) :
    (iblk1 (F := Ideal) V c 1 t : Vec Ideal S92x128 .f32) y = (V c main_arg5 : S92x128.Idx → EReal) k := by
  obtain ⟨-, -, e0, e1, -⟩ := idx_facts t
  unfold iblk1
  rw [View.read_apply]
  show (V c main_arg5 : S92x128.Idx → EReal) _ = V c main_arg5 _
  congr 1
  funext a
  apply Fin.ext
  match a with
  | ⟨0, _⟩ => show win1_1.index t (0 : Fin 2) * 92 + 1 * (y 0).val = (k 0).val; rw [e0, hk0]; omega
  | ⟨1, _⟩ => show win1_1.index t (1 : Fin 2) * 128 + 1 * (y 1).val = (k 1).val; rw [e1, hk1]; omega

/-- The bias block at any tile is the whole bias row. -/
theorem bias_blk (c : Dev nD) (t : Fin cfg1.N) (y : S1x128.Idx) (k : S1x128.Idx)
    (hk0 : (k 0).val = (y 0).val) (hk1 : (k 1).val = (y 1).val) :
    (iblk1 (F := Ideal) V c 2 t : Vec Ideal S1x128 .f32) y = (V c main_v16 : S1x128.Idx → EReal) k := by
  obtain ⟨-, -, -, -, e0, e1, -⟩ := idx_facts t
  unfold iblk1
  rw [View.read_apply]
  show (V c main_v16 : S1x128.Idx → EReal) _ = V c main_v16 _
  congr 1
  funext a
  apply Fin.ext
  match a with
  | ⟨0, _⟩ => show win1_2.index t (0 : Fin 2) * 1 + 1 * (y 0).val = (k 0).val; rw [e0, hk0]; omega
  | ⟨1, _⟩ => show win1_2.index t (1 : Fin 2) * 128 + 1 * (y 1).val = (k 1).val; rw [e1, hk1]; omega

/-- Row `y 0` of tile `t` of the scale column is row `5000·t + y 0` of the column. -/
theorem scale_blk (c : Dev nD) (t : Fin cfg1.N) (y : S5000x1.Idx) (k : S50000x1.Idx)
    (hk0 : (k 0).val = 5000 * t.val + (y 0).val) (hk1 : (k 1).val = (y 1).val) :
    (iblk1 (F := Ideal) V c 3 t : Vec Ideal S5000x1 .f32) y = (V c main_v12 : S50000x1.Idx → EReal) k := by
  obtain ⟨-, -, -, -, -, -, e0, e1, -⟩ := idx_facts t
  unfold iblk1
  rw [View.read_apply]
  show (V c main_v12 : S50000x1.Idx → EReal) _ = V c main_v12 _
  congr 1
  funext a
  apply Fin.ext
  match a with
  | ⟨0, _⟩ => show win1_3.index t (0 : Fin 2) * 5000 + 1 * (y 0).val = (k 0).val; rw [e0, hk0]; omega
  | ⟨1, _⟩ => show win1_3.index t (1 : Fin 2) * 1 + 1 * (y 1).val = (k 1).val; rw [e1, hk1]; omega

/-- Entry `j` of a tile's result is the scaled embedding at entry `i` of the whole arrays, as soon as the block entries it
    reads (row `j 0` of the features, column `j 1` of the weights, the bias of column `j 1`, the scale of row `j 0`) are the
    whole arrays' entries of row `i 0` and column `i 1`. -/
theorem tile_entry (x0 : Vec Ideal S5000x92 .f32) (x1 : Vec Ideal S92x128 .f32) (x2 : Vec Ideal S1x128 .f32) (x3 : Vec Ideal S5000x1 .f32)
    (a : S50000x92.Idx → EReal) (w : S92x128.Idx → EReal) (b : S1x128.Idx → EReal) (s : S50000x1.Idx → EReal)
    (j : S5000x128.Idx) (i : S50000x128.Idx)
    (h0 : ∀ k : Fin 92, x0 (ix2 (j 0) k) = a (ix2 (i 0) k)) (h1 : ∀ k : Fin 92, x1 (ix2 k (j 1)) = w (ix2 k (i 1)))
    (h2 : x2 (ix2 0 (j 1)) = b (ix2 0 (i 1))) (h3 : x3 (ix2 (j 0) 0) = s (ix2 (i 0) 0)) :
    k1_pay1 (F := Ideal) x0 x1 x2 x3 j = Cert.Stages.embed a w b s i := by
  have e : k1_pay1 (F := Ideal) x0 x1 x2 x3 j
      = ((∑ k : Fin 92, x0 (ix2 (j 0) k) * x1 (ix2 k (j 1))) + x2 (ix2 0 (j 1))) * x3 (ix2 (j 0) 0) := by
    obtain ⟨p, q, rfl⟩ : ∃ (p : Fin 5000) (q : Fin 128), j = ix2 p q := ⟨j 0, j 1, eq_ix2 j⟩
    exact Pay1.pay x0 x1 x2 x3 p q
  have es : (∑ k : Fin 92, x0 (ix2 (j 0) k) * x1 (ix2 k (j 1))) = ∑ k : Fin 92, a (ix2 (i 0) k) * w (ix2 k (i 1)) :=
    Finset.sum_congr rfl fun k _ => by rw [h0 k, h1 k]
  rw [e, es, h2, h3]
  rfl

/-- What tile `t` writes back is block `t` of the scaled embedding computed from the whole arrays. -/
theorem flushed_eq (c : Dev nD) (t : Fin cfg1.N) :
    (dat1 (F := Ideal) V c).flushed 4 t
      = ((cfg1.win 4).blk t).view.read (Elt Ideal)
          (Cert.Stages.embed (V c main_arg0) (V c main_arg5) (V c main_v16) (V c main_v12)) := by
  show (cfg1.win 4).cut (grid1.coords t) ((dat1 V c).after 4 t) = _
  rw [after1_4]
  unfold out1_4
  rw [View.canon_unit_zero zeros2]
  simp only [View.ld_unit_zero (S := S5000x92) zeros2, View.ld_unit_zero (S := S92x128) zeros2,
    View.ld_unit_zero (S := S1x128) zeros2, View.ld_unit_zero (S := S5000x1) zeros2]
  obtain ⟨-, -, -, -, -, -, -, -, e0, e1⟩ := idx_facts t
  funext j
  have hi0 : ((((cfg1.win 4).blk t).view.emb j) 0).val = 5000 * t.val + (j 0).val := by
    show win1_4.index t (0 : Fin 2) * 5000 + 1 * (j 0).val = _; rw [e0]; omega
  have hi1 : ((((cfg1.win 4).blk t).view.emb j) 1).val = (j 1).val := by
    show win1_4.index t (1 : Fin 2) * 128 + 1 * (j 1).val = _; rw [e1]; omega
  show k1_pay1 (F := Ideal) (iblk1 V c 0 t) (iblk1 V c 1 t) (iblk1 V c 2 t) (iblk1 V c 3 t) j
      = Cert.Stages.embed (V c main_arg0) (V c main_arg5) (V c main_v16) (V c main_v12) (((cfg1.win 4).blk t).view.emb j)
  exact tile_entry (iblk1 V c 0 t) (iblk1 V c 1 t) (iblk1 V c 2 t) (iblk1 V c 3 t)
    (V c main_arg0) (V c main_arg5) (V c main_v16) (V c main_v12) j (((cfg1.win 4).blk t).view.emb j)
    (fun k => feat_blk V c t (ix2 (j 0) k) (ix2 ((((cfg1.win 4).blk t).view.emb j) 0) k) hi0 rfl)
    (fun k => wts_blk V c t (ix2 k (j 1)) (ix2 k ((((cfg1.win 4).blk t).view.emb j) 1)) rfl hi1)
    (bias_blk V c t (ix2 0 (j 1)) (ix2 0 ((((cfg1.win 4).blk t).view.emb j) 1)) rfl hi1)
    (scale_blk V c t (ix2 (j 0) 0) (ix2 ((((cfg1.win 4).blk t).view.emb j) 0) 0) hi0 rfl)

/-- An index of the array is in tile `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v19).slice (win1_4.rect t)).set ↔ _
  rw [View.set_slice_whole, Rect.mem_set_unit]
  exact Iff.rfl

/-- Every node's row lies in some tile: row `r` in tile `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 128 ≤ (i 1).val ∧ (i 1).val < win1_4.index t (1 : Fin 2) * 128 + 128; rw [e1]; omega

/-- After the 10 tiles of 5000 nodes the output holds the scaled embedding of every node. -/
theorem final (c : Dev nD) :
    (dat1 (F := Ideal) V c).arrAt 4 cfg1.N = Cert.Stages.embed (V c main_arg0) (V c main_arg5) (V c main_v16) (V c main_v12) :=
  (dat1 V c).arrAt_eq_of_cover 4 _ (fun t _ => flushed_eq V c t) cover

end Cert.KernelIdeal.Reg1

end
-- ==== Proof.Pay2.lean ====
import proofs.«102298_j76175539961908_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«102298_j76175539961908_2_alg».proof.Proof.PayLayout

noncomputable section

open Idealize.ShloMosaic Idealize.ShloMosaic.TcCoe Idealize.SL.Sem Idealize.ShloMosaic.ValueIdx

namespace Cert.KernelIdeal.Pay2
open Cert.KernelIdeal Cert.KernelIdeal.Gen

/-- Entry (p, q) of the tile's result: the scaled row p against column q of the weights, plus the bias, clamped below at zero. -/
theorem pay (x0 : Vec Ideal S5000x128 .f32) (x1 : Vec Ideal S5000x1 .f32) (x2 : Vec Ideal S128x128 .f32) (x3 : Vec Ideal S1x128 .f32) (p : Fin 5000) (q : Fin 128) :
    k2_pay1 (F := Ideal) x0 x1 x2 x3 (ix2 p q) = max ((∑ k : Fin 128, (x0 (ix2 p k) * x1 (ix2 p 0)) * x2 (ix2 k q)) + x3 (ix2 0 q)) 0 := by
  unfold k2_pay1
  -- the body, entry by entry: the larger of (product from zero + the bias row spread over the rows) and the zero word
  show max (matmul dot_S5000x128_S128x128_S5000x128_1_0_0_1_n_n none
          (truncf .bf16 (mulf (shapeCast S5000x128 x0 shapeCasts_S5000x128_S5000x128)
            (broadcastTo S5000x128 (shapeCast S5000x1 x1 shapeCasts_S5000x1_S5000x1) broadcasts_S5000x1_S5000x128)) bitsLt_bf16_f32)
          (truncf .bf16 x2 bitsLt_bf16_f32) (constant (F := Ideal) S5000x128 .f32 0x00000000#32) (ix2 p q)
        + broadcastTo S5000x128 (shapeCast S1x128 x3 shapeCasts_S1x128_S1x128) broadcasts_S1x128_S5000x128 (ix2 p q))
      (Ideal.ofBits .f32 0x00000000#32) = _
  rw [shapeCast_self, shapeCast_self, shapeCast_self, PayLayout.matmul_128_128, broadcastTo_1b_ab_apply, Ideal.ofBits_zero_f32]
  refine congrArg (fun s => max (s + x3 (ix2 0 q)) 0) (Finset.sum_congr rfl fun k _ => ?_)
  -- the left operand at (p, k): the row's entry times the row's scale
  show x0 (ix2 p k) * broadcastTo S5000x128 x1 broadcasts_S5000x1_S5000x128 (ix2 p k) * x2 (ix2 k q) = _
  rw [PayLayout.broadcastTo_a1_ab_apply]

end Cert.KernelIdeal.Pay2

end
-- ==== Proof.Reg2.lean ====
import proofs.«102298_j76175539961908_2_alg».proof.Proof.Gen.KernelIdeal.Frame
import proofs.«102298_j76175539961908_2_alg».proof.Proof.Pay2
import proofs.«102298_j76175539961908_2_alg».proof.Proof.Stages
import Idealize.ShloMosaic.Lib.Pipeline.Value

noncomputable section

open Idealize.ShloMosaic Idealize.ShloMosaic.TcCoe Idealize.SL.Sem Idealize.ShloMosaic.ValueIdx

namespace Cert.KernelIdeal.Reg2
open Cert.KernelIdeal Cert.KernelIdeal.Gen

/-- A block that starts at the origin of its staging buffer has zero offsets. -/
theorem hz : (![0, 0] : Fin 2 → Nat) = fun _ => 0 :=
  funext fun a => match a with | ⟨0, _⟩ => rfl | ⟨1, _⟩ => rfl

/-- Tile `t` is block row `t` of the aggregate, of the nodes' scale column and of the output, none of them cut along its
    columns; the weights and the bias row are read whole by every tile. -/
theorem tile_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- One entry of a tile against the whole arrays: when row `p` of the tile of aggregates and of the tile of scales is
    row `i 0` of the arrays, and the tile reads the whole weights and the whole bias row, entry `(p, q)` of the tile's
    result is the first layer's activation at `i` (whose column is `q`). -/
theorem tile_entry (x0 : Vec Ideal S5000x128 .f32) (x1 : Vec Ideal S5000x1 .f32) (x2 : Vec Ideal S128x128 .f32)
    (x3 : Vec Ideal S1x128 .f32) (g : Cert.Stages.Arr2 50000 128) (d : Cert.Stages.Arr2 50000 1)
    (w : Cert.Stages.Arr2 128 128) (b : Cert.Stages.Arr2 1 128) (p : Fin 5000) (q : Fin 128) (i : S50000x128.Idx)
    (h0 : ∀ k : Fin 128, x0 (ix2 p k) = g (ix2 (i 0) k)) (h1 : x1 (ix2 p 0) = d (ix2 (i 0) 0))
    (h2 : ∀ k : Fin 128, x2 (ix2 k q) = w (ix2 k (i 1))) (h3 : x3 (ix2 0 q) = b (ix2 0 (i 1))) :
    k2_pay1 (F := Ideal) x0 x1 x2 x3 (ix2 p q) = Cert.Stages.conv1 g d w b i := by
  rw [Pay2.pay]
  unfold Cert.Stages.conv1
  rw [h1, h3]
  refine congrArg (fun s => max (s + b (ix2 0 (i 1))) 0) (Finset.sum_congr rfl fun k _ => ?_)
  rw [h0 k, h2 k]

/-- What tile `t` writes back is rows `5000·t … 5000·t + 4999` of the first layer's activations: row `p` of each tiled
    input is row `5000·t + p` of its array, and the weights and the bias row are the whole arrays. -/
theorem flushed_eq (V : (c : Dev nD) → (b : Ref sig .tc) → Buf (Elt Ideal) ((c : Thread nD τ).loc b)) (c : Dev nD)
    (t : Fin cfg2.N) :
    (dat2 (F := Ideal) V c).flushed 4 t
      = ((cfg2.win 4).blk t).view.read (Elt Ideal)
          (Cert.Stages.conv1 (V c main_v31) (V c main_v15) (V c main_arg7) (V c main_v17)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41⟩ := tile_index t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (ix2 p q)
    = Cert.Stages.conv1 (V c main_v31) (V c main_v15) (V c main_arg7) (V c main_v17)
        (((cfg2.win 4).blk t).view.emb (ix2 p q))
  refine tile_entry (iblk2 V c 0 t) (iblk2 V c 1 t) (iblk2 V c 2 t) (iblk2 V c 3 t)
    (V c main_v31) (V c main_v15) (V c main_arg7) (V c main_v17) p q
    (((cfg2.win 4).blk t).view.emb (ix2 p q)) (fun k => ?_) ?_ (fun k => ?_) ?_
  · show V c main_v31 (((cfg2.win 0).blk t).view.emb (ix2 p k)) = _
    refine congrArg (V c main_v31) (funext fun a => Fin.ext ?_)
    match a with
    | ⟨0, _⟩ =>
      show win2_0.index t (0 : Fin 2) * 5000 + 1 * p.val = win2_4.index t (0 : Fin 2) * 5000 + 1 * p.val
      omega
    | ⟨1, _⟩ =>
      show win2_0.index t (1 : Fin 2) * 128 + 1 * k.val = k.val
      omega
  · show V c main_v15 (((cfg2.win 1).blk t).view.emb (ix2 p 0)) = _
    refine congrArg (V c main_v15) (funext fun a => Fin.ext ?_)
    match a with
    | ⟨0, _⟩ =>
      show win2_1.index t (0 : Fin 2) * 5000 + 1 * p.val = win2_4.index t (0 : Fin 2) * 5000 + 1 * p.val
      omega
    | ⟨1, _⟩ =>
      show win2_1.index t (1 : Fin 2) * 1 + 1 * 0 = 0
      omega
  · show V c main_arg7 (((cfg2.win 2).blk t).view.emb (ix2 k q)) = _
    refine congrArg (V c main_arg7) (funext fun a => Fin.ext ?_)
    match a with
    | ⟨0, _⟩ =>
      show win2_2.index t (0 : Fin 2) * 128 + 1 * k.val = k.val
      omega
    | ⟨1, _⟩ =>
      show win2_2.index t (1 : Fin 2) * 128 + 1 * q.val = win2_4.index t (1 : Fin 2) * 128 + 1 * q.val
      omega
  · show V c main_v17 (((cfg2.win 3).blk t).view.emb (ix2 0 q)) = _
    refine congrArg (V c main_v17) (funext fun a => Fin.ext ?_)
    match a with
    | ⟨0, _⟩ =>
      show win2_3.index t (0 : Fin 2) * 1 + 1 * 0 = 0
      omega
    | ⟨1, _⟩ =>
      show win2_3.index t (1 : Fin 2) * 128 + 1 * q.val = win2_4.index t (1 : Fin 2) * 128 + 1 * q.val
      omega

/-- An entry of the output is in tile `t`'s block iff its row lies in the tile's range of 5000 (and its column in the
    128 columns). -/
theorem mem_tile (t : Fin cfg2.N) (i : S50000x128.Idx) :
    i ∈ ((cfg2.win 4).blk t).view.set
      ↔ ∀ a : Fin 2, win2_4.index t a * S5000x128.size a ≤ (i a).val
          ∧ (i a).val < win2_4.index t a * S5000x128.size a + S5000x128.size a := by
  show i ∈ ((View.whole main_v32).slice (win2_4.rect t)).set ↔ _
  rw [View.set_slice_whole, Rect.mem_set_unit]
  exact Iff.rfl

/-- Every node `n`'s row is written by some tile: tile `n / 5000`. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, -, -, e40, e41⟩ := tile_index ⟨(i 0).val / 5000, ht⟩
  refine ⟨⟨(i 0).val / 5000, ht⟩, flush2_4 _, ?_⟩
  rw [mem_tile]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [e41]
    omega

/-- After the 10 tiles of 5000 nodes the output holds the first layer's activations of every node. -/
theorem final (V : (c : Dev nD) → (b : Ref sig .tc) → Buf (Elt Ideal) ((c : Thread nD τ).loc b)) (c : Dev nD) :
    (dat2 (F := Ideal) V c).arrAt 4 cfg2.N = Cert.Stages.conv1 (V c main_v31) (V c main_v15) (V c main_arg7) (V c main_v17) :=
  (dat2 V c).arrAt_eq_of_cover 4 _ (fun t _ => flushed_eq V c t) cover

end Cert.KernelIdeal.Reg2

end
-- ==== Proof.Pay3.lean ====
import proofs.«102298_j76175539961908_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«102298_j76175539961908_2_alg».proof.Proof.PayLayout

noncomputable section

open Idealize.ShloMosaic Idealize.ShloMosaic.TcCoe Idealize.SL.Sem Idealize.ShloMosaic.ValueIdx

namespace Cert.KernelIdeal.Pay3
open Cert.KernelIdeal Cert.KernelIdeal.Gen

/-- Entry (p, q) of the tile's result: the scaled row p against column q of the weights. -/
theorem pay (x0 : Vec Ideal S5000x128 .f32) (x1 : Vec Ideal S5000x1 .f32) (x2 : Vec Ideal S128x64 .f32) (p : Fin 5000) (q : Fin 64) :
    k3_pay1 (F := Ideal) x0 x1 x2 (ix2 p q) = ∑ k : Fin 128, (x0 (ix2 p k) * x1 (ix2 p 0)) * x2 (ix2 k q) := by
  unfold k3_pay1
  -- the product from a zero accumulator is the sum over k of the two rounded operands' entries
  refine (PayLayout.matmul_128_64 _ _ p q).trans ?_
  refine Finset.sum_congr rfl fun k _ => ?_
  -- the left operand at (p, k): the row's entry times the row's scale, the casts to the same shape dropped
  rw [shapeCast_self, shapeCast_self]
  show x0 (ix2 p k) * broadcastTo S5000x128 x1 broadcasts_S5000x1_S5000x128 (ix2 p k) * x2 (ix2 k q) = _
  rw [PayLayout.broadcastTo_a1_ab_apply]

end Cert.KernelIdeal.Pay3

end
-- ==== Proof.Reg3.lean ====
import proofs.«102298_j76175539961908_2_alg».proof.Proof.Gen.KernelIdeal.Frame
import proofs.«102298_j76175539961908_2_alg».proof.Proof.Pay3
import proofs.«102298_j76175539961908_2_alg».proof.Proof.Stages
import Idealize.ShloMosaic.Lib.Pipeline.Value

noncomputable section

open Idealize.ShloMosaic Idealize.ShloMosaic.TcCoe Idealize.SL.Sem Idealize.ShloMosaic.ValueIdx

namespace Cert.KernelIdeal.Reg3
open Cert.KernelIdeal Cert.KernelIdeal.Gen

/-- The zero offsets of a whole-buffer access, spelt as the constant function. -/
theorem zeros2 : (![0, 0] : Fin 2 → Nat) = fun _ => 0 := funext fun a => by fin_cases a <;> rfl

/-- Tile `t` takes block `t` of the rows of the activations, of the scale column and of the output, in their only block
    of columns; the weight matrix is the same single block at every tile. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Blocks
variable (V : (c : Dev nD) → (b : Ref sig .tc) → Buf (Elt Ideal) ((c : Thread nD τ).loc b))

/-- Row `y 0` of tile `t` of the activations is row `5000·t + y 0` of the array. -/
theorem act_blk (c : Dev nD) (t : Fin cfg3.N) (y : S5000x128.Idx) (k : S50000x128.Idx)
    (hk0 : (k 0).val = 5000 * t.val + (y 0).val) (hk1 : (k 1).val = (y 1).val) :
    (iblk3 (F := Ideal) V c 0 t : Vec Ideal S5000x128 .f32) y = (V c main_v32 : S50000x128.Idx → EReal) k := by
  obtain ⟨e0, e1, -⟩ := idx_facts t
  unfold iblk3
  rw [View.read_apply]
  show (V c main_v32 : S50000x128.Idx → EReal) _ = V c main_v32 _
  congr 1
  funext a
  apply Fin.ext
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- Row `y 0` of tile `t` of the scale column is row `5000·t + y 0` of the column. -/
theorem scale_blk (c : Dev nD) (t : Fin cfg3.N) (y : S5000x1.Idx) (k : S50000x1.Idx)
    (hk0 : (k 0).val = 5000 * t.val + (y 0).val) (hk1 : (k 1).val = (y 1).val) :
    (iblk3 (F := Ideal) V c 1 t : Vec Ideal S5000x1 .f32) y = (V c main_v12 : S50000x1.Idx → EReal) k := by
  obtain ⟨-, -, e0, e1, -⟩ := idx_facts t
  unfold iblk3
  rw [View.read_apply]
  show (V c main_v12 : S50000x1.Idx → EReal) _ = V c main_v12 _
  congr 1
  funext a
  apply Fin.ext
  match a with
  | ⟨0, _⟩ => show win3_1.index t (0 : Fin 2) * 5000 + 1 * (y 0).val = (k 0).val; rw [e0, hk0]; omega
  | ⟨1, _⟩ => show win3_1.index t (1 : Fin 2) * 1 + 1 * (y 1).val = (k 1).val; rw [e1, hk1]; omega

/-- The weight block at any tile is the whole weight matrix. -/
theorem weight_blk (c : Dev nD) (t : Fin cfg3.N) (y : S128x64.Idx) (k : S128x64.Idx)
    (hk0 : (k 0).val = (y 0).val) (hk1 : (k 1).val = (y 1).val) :
    (iblk3 (F := Ideal) V c 2 t : Vec Ideal S128x64 .f32) y = (V c main_arg9 : S128x64.Idx → EReal) k := by
  obtain ⟨-, -, -, -, e0, e1, -⟩ := idx_facts t
  unfold iblk3
  rw [View.read_apply]
  show (V c main_arg9 : S128x64.Idx → EReal) _ = V c main_arg9 _
  congr 1
  funext a
  apply Fin.ext
  match a with
  | ⟨0, _⟩ => show win3_2.index t (0 : Fin 2) * 128 + 1 * (y 0).val = (k 0).val; rw [e0, hk0]; omega
  | ⟨1, _⟩ => show win3_2.index t (1 : Fin 2) * 64 + 1 * (y 1).val = (k 1).val; rw [e1, hk1]; omega

/-- Entry `j` of a tile's result is the projected row at entry `i` of the whole arrays, as soon as the block entries it
    reads — row `j 0` of the activations and of the scale, column `j 1` of the weights — are the whole arrays' entries of
    row `i 0` and column `i 1`. -/
theorem tile_entry (x0 : Vec Ideal S5000x128 .f32) (x1 : Vec Ideal S5000x1 .f32) (x2 : Vec Ideal S128x64 .f32)
    (g : S50000x128.Idx → EReal) (s : S50000x1.Idx → EReal) (w : S128x64.Idx → EReal) (j : S5000x64.Idx) (i : S50000x64.Idx)
    (h0 : ∀ k : Fin 128, x0 (ix2 (j 0) k) = g (ix2 (i 0) k)) (h1 : x1 (ix2 (j 0) 0) = s (ix2 (i 0) 0))
    (h2 : ∀ k : Fin 128, x2 (ix2 k (j 1)) = w (ix2 k (i 1))) :
    k3_pay1 (F := Ideal) x0 x1 x2 j = Cert.Stages.pre2 g s w i := by
  have e : k3_pay1 (F := Ideal) x0 x1 x2 j = ∑ k : Fin 128, (x0 (ix2 (j 0) k) * x1 (ix2 (j 0) 0)) * x2 (ix2 k (j 1)) := by
    obtain ⟨p, q, rfl⟩ : ∃ (p : Fin 5000) (q : Fin 64), j = ix2 p q := ⟨j 0, j 1, eq_ix2 j⟩
    exact Pay3.pay x0 x1 x2 p q
  rw [e]
  unfold Cert.Stages.pre2
  refine Finset.sum_congr rfl fun k _ => ?_
  rw [h0 k, h1, h2 k]

/-- What tile `t` writes back is block `t` of the projected rows computed from the whole arrays. -/
theorem flushed_eq (c : Dev nD) (t : Fin cfg3.N) :
    (dat3 (F := Ideal) V c).flushed 3 t
      = ((cfg3.win 3).blk t).view.read (Elt Ideal) (Cert.Stages.pre2 (V c main_v32) (V c main_v12) (V c main_arg9)) := by
  show (cfg3.win 3).cut (grid3.coords t) ((dat3 V c).after 3 t) = _
  rw [after3_3]
  unfold out3_3
  rw [View.canon_unit_zero zeros2]
  simp only [View.ld_unit_zero (S := S5000x128) zeros2, View.ld_unit_zero (S := S5000x1) zeros2, View.ld_unit_zero (S := S128x64) zeros2]
  obtain ⟨-, -, -, -, -, -, e0, e1⟩ := idx_facts t
  funext j
  have hi0 : ((((cfg3.win 3).blk t).view.emb j) 0).val = 5000 * t.val + (j 0).val := by
    show win3_3.index t (0 : Fin 2) * 5000 + 1 * (j 0).val = _; rw [e0]; omega
  have hi1 : ((((cfg3.win 3).blk t).view.emb j) 1).val = (j 1).val := by
    show win3_3.index t (1 : Fin 2) * 64 + 1 * (j 1).val = _; rw [e1]; omega
  show k3_pay1 (F := Ideal) (iblk3 V c 0 t) (iblk3 V c 1 t) (iblk3 V c 2 t) j
      = Cert.Stages.pre2 (V c main_v32) (V c main_v12) (V c main_arg9) (((cfg3.win 3).blk t).view.emb j)
  exact tile_entry (iblk3 V c 0 t) (iblk3 V c 1 t) (iblk3 V c 2 t) (V c main_v32) (V c main_v12) (V c main_arg9) j
    (((cfg3.win 3).blk t).view.emb j)
    (fun k => act_blk V c t (ix2 (j 0) k) (ix2 ((((cfg3.win 3).blk t).view.emb j) 0) k) hi0 rfl)
    (scale_blk V c t (ix2 (j 0) 0) (ix2 ((((cfg3.win 3).blk t).view.emb j) 0) 0) hi0 rfl)
    (fun k => weight_blk V c t (ix2 k (j 1)) (ix2 k ((((cfg3.win 3).blk t).view.emb j) 1)) rfl hi1)

end Blocks

/-- An index of the array is in tile `t`'s block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v33).slice (win3_3.rect t)).set ↔ _
  rw [View.set_slice_whole, Rect.mem_set_unit]
  exact Iff.rfl

/-- Every node's row lies in some tile: row `r` in tile `r / 5000`. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨-, -, -, -, -, -, e0, e1⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 64 ≤ (i 1).val ∧ (i 1).val < win3_3.index t (1 : Fin 2) * 64 + 64; rw [e1]; omega

/-- After the 10 tiles of 5000 nodes the output holds the second layer's projected rows of every node. -/
theorem final (V : (c : Dev nD) → (b : Ref sig .tc) → Buf (Elt Ideal) ((c : Thread nD τ).loc b)) (c : Dev nD) :
    (dat3 (F := Ideal) V c).arrAt 3 cfg3.N = Cert.Stages.pre2 (V c main_v32) (V c main_v12) (V c main_arg9) :=
  (dat3 V c).arrAt_eq_of_cover 3 _ (fun t _ => flushed_eq V c t) cover

end Cert.KernelIdeal.Reg3

end
-- ==== Proof.Pay4.lean ====
import proofs.«102298_j76175539961908_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Pay4
open Cert.KernelIdeal Cert.KernelIdeal.Gen

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of the tile's result: the entry times the row's scale, plus the bias. -/
theorem pay (x0 : Vec Ideal S5000x64 .f32) (x1 : Vec Ideal S5000x1 .f32) (x2 : Vec Ideal S1x64 .f32) (p : Fin 5000) (q : Fin 64) :
    k4_pay1 (F := Ideal) x0 x1 x2 (ix2 p q) = x0 (ix2 p q) * x1 (ix2 p 0) + x2 (ix2 0 q) := by
  unfold k4_pay1
  simp only [addf_apply, mulf_apply, shapeCast_self]
  rw [broadcastTo_a1_ab_apply, broadcastTo_1b_ab_apply]

end Cert.KernelIdeal.Pay4

end
-- ==== Proof.Reg4.lean ====
import proofs.«102298_j76175539961908_2_alg».proof.Proof.Gen.KernelIdeal.Frame
import proofs.«102298_j76175539961908_2_alg».proof.Proof.Pay4
import proofs.«102298_j76175539961908_2_alg».proof.Proof.Stages
import Idealize.ShloMosaic.Lib.Pipeline.Value

noncomputable section

open Idealize.ShloMosaic Idealize.ShloMosaic.TcCoe Idealize.SL.Sem Idealize.ShloMosaic.ValueIdx

namespace Cert.KernelIdeal.Reg4
open Cert.KernelIdeal Cert.KernelIdeal.Gen

/-- The zero offsets of a whole-buffer access, spelt as the constant function. -/
theorem zeros2 : (![0, 0] : Fin 2 → Nat) = fun _ => 0 := funext fun a => by fin_cases a <;> rfl

/-- Tile `t` takes block `t` of the rows of the aggregate, of the scale column and of the output, in their only block of
    columns; the bias row is the same single block at every tile. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- Row `y 0` of tile `t` of the aggregate is row `5000·t + y 0` of the array. -/
theorem agg_blk (c : Dev nD) (t : Fin cfg4.N) (y : S5000x64.Idx) (k : S50000x64.Idx)
    (hk0 : (k 0).val = 5000 * t.val + (y 0).val) (hk1 : (k 1).val = (y 1).val) :
    (iblk4 (F := Ideal) V c 0 t : Vec Ideal S5000x64 .f32) y = (V c main_v45 : S50000x64.Idx → EReal) k := by
  obtain ⟨e0, e1, -⟩ := idx_facts t
  unfold iblk4
  rw [View.read_apply]
  show (V c main_v45 : S50000x64.Idx → EReal) _ = V c main_v45 _
  congr 1
  funext a
  apply Fin.ext
  match a with
  | ⟨0, _⟩ => show win4_0.index t (0 : Fin 2) * 5000 + 1 * (y 0).val = (k 0).val; rw [e0, hk0]; omega
  | ⟨1, _⟩ => show win4_0.index t (1 : Fin 2) * 64 + 1 * (y 1).val = (k 1).val; rw [e1, hk1]; omega

/-- Row `y 0` of tile `t` of the scale column is row `5000·t + y 0` of the column. -/
theorem scale_blk (c : Dev nD) (t : Fin cfg4.N) (y : S5000x1.Idx) (k : S50000x1.Idx)
    (hk0 : (k 0).val = 5000 * t.val + (y 0).val) (hk1 : (k 1).val = (y 1).val) :
    (iblk4 (F := Ideal) V c 1 t : Vec Ideal S5000x1 .f32) y = (V c main_v15 : S50000x1.Idx → EReal) k := by
  obtain ⟨-, -, e0, e1, -⟩ := idx_facts t
  unfold iblk4
  rw [View.read_apply]
  show (V c main_v15 : S50000x1.Idx → EReal) _ = V c main_v15 _
  congr 1
  funext a
  apply Fin.ext
  match a with
  | ⟨0, _⟩ => show win4_1.index t (0 : Fin 2) * 5000 + 1 * (y 0).val = (k 0).val; rw [e0, hk0]; omega
  | ⟨1, _⟩ => show win4_1.index t (1 : Fin 2) * 1 + 1 * (y 1).val = (k 1).val; rw [e1, hk1]; omega

/-- The bias block at any tile is the whole bias row. -/
theorem bias_blk (c : Dev nD) (t : Fin cfg4.N) (y : S1x64.Idx) (k : S1x64.Idx)
    (hk0 : (k 0).val = (y 0).val) (hk1 : (k 1).val = (y 1).val) :
    (iblk4 (F := Ideal) V c 2 t : Vec Ideal S1x64 .f32) y = (V c main_v18 : S1x64.Idx → EReal) k := by
  obtain ⟨-, -, -, -, e0, e1, -⟩ := idx_facts t
  unfold iblk4
  rw [View.read_apply]
  show (V c main_v18 : S1x64.Idx → EReal) _ = V c main_v18 _
  congr 1
  funext a
  apply Fin.ext
  match a with
  | ⟨0, _⟩ => show win4_2.index t (0 : Fin 2) * 1 + 1 * (y 0).val = (k 0).val; rw [e0, hk0]; omega
  | ⟨1, _⟩ => show win4_2.index t (1 : Fin 2) * 64 + 1 * (y 1).val = (k 1).val; rw [e1, hk1]; omega

/-- Entry `j` of a tile's result is the second layer's result at entry `i` of the whole arrays, as soon as the three block
    entries it reads are the whole arrays' entries of row `i 0` and column `i 1`. -/
theorem tile_entry (x0 : Vec Ideal S5000x64 .f32) (x1 : Vec Ideal S5000x1 .f32) (x2 : Vec Ideal S1x64 .f32)
    (g : S50000x64.Idx → EReal) (d : S50000x1.Idx → EReal) (b : S1x64.Idx → EReal) (j : S5000x64.Idx) (i : S50000x64.Idx)
    (h0 : x0 j = g i) (h1 : x1 (ix2 (j 0) 0) = d (ix2 (i 0) 0)) (h2 : x2 (ix2 0 (j 1)) = b (ix2 0 (i 1))) :
    k4_pay1 (F := Ideal) x0 x1 x2 j = Cert.Stages.post2 g d b i := by
  have e : k4_pay1 (F := Ideal) x0 x1 x2 j = x0 j * x1 (ix2 (j 0) 0) + x2 (ix2 0 (j 1)) := by
    obtain ⟨p, q, rfl⟩ : ∃ (p : Fin 5000) (q : Fin 64), j = ix2 p q := ⟨j 0, j 1, eq_ix2 j⟩
    exact Pay4.pay x0 x1 x2 p q
  rw [e, h0, h1, h2]
  rfl

/-- What tile `t` writes back is block `t` of the second layer's result computed from the whole arrays. -/
theorem flushed_eq (c : Dev nD) (t : Fin cfg4.N) :
    (dat4 (F := Ideal) V c).flushed 3 t
      = ((cfg4.win 3).blk t).view.read (Elt Ideal) (Cert.Stages.post2 (V c main_v45) (V c main_v15) (V c main_v18)) := by
  show (cfg4.win 3).cut (grid4.coords t) ((dat4 V c).after 3 t) = _
  rw [after4_3]
  unfold out4_3
  rw [View.canon_unit_zero zeros2]
  simp only [View.ld_unit_zero (S := S5000x64) zeros2, View.ld_unit_zero (S := S5000x1) zeros2, View.ld_unit_zero (S := S1x64) zeros2]
  obtain ⟨-, -, -, -, -, -, e0, e1⟩ := idx_facts t
  funext j
  have hi0 : ((((cfg4.win 3).blk t).view.emb j) 0).val = 5000 * t.val + (j 0).val := by
    show win4_3.index t (0 : Fin 2) * 5000 + 1 * (j 0).val = _; rw [e0]; omega
  have hi1 : ((((cfg4.win 3).blk t).view.emb j) 1).val = (j 1).val := by
    show win4_3.index t (1 : Fin 2) * 64 + 1 * (j 1).val = _; rw [e1]; omega
  show k4_pay1 (F := Ideal) (iblk4 V c 0 t) (iblk4 V c 1 t) (iblk4 V c 2 t) j
      = Cert.Stages.post2 (V c main_v45) (V c main_v15) (V c main_v18) (((cfg4.win 3).blk t).view.emb j)
  exact tile_entry (iblk4 V c 0 t) (iblk4 V c 1 t) (iblk4 V c 2 t) (V c main_v45) (V c main_v15) (V c main_v18) j
    (((cfg4.win 3).blk t).view.emb j)
    (agg_blk V c t j (((cfg4.win 3).blk t).view.emb j) hi0 hi1)
    (scale_blk V c t (ix2 (j 0) 0) (ix2 ((((cfg4.win 3).blk t).view.emb j) 0) 0) hi0 rfl)
    (bias_blk V c t (ix2 0 (j 1)) (ix2 0 ((((cfg4.win 3).blk t).view.emb j) 1)) rfl hi1)

/-- An index of the array is in tile `t`'s block iff each coordinate is in the block's range on its axis. -/
theorem mem_blk (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v46).slice (win4_3.rect t)).set ↔ _
  rw [View.set_slice_whole, Rect.mem_set_unit]
  exact Iff.rfl

/-- Every node's row lies in some tile: row `r` in tile `r / 5000`. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨-, -, -, -, -, -, e0, e1⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 64 ≤ (i 1).val ∧ (i 1).val < win4_3.index t (1 : Fin 2) * 64 + 64; rw [e1]; omega

/-- After the 10 tiles of 5000 nodes the output holds the second layer's result of every node. -/
theorem final (c : Dev nD) :
    (dat4 (F := Ideal) V c).arrAt 3 cfg4.N = Cert.Stages.post2 (V c main_v45) (V c main_v15) (V c main_v18) :=
  (dat4 V c).arrAt_eq_of_cover 3 _ (fun t _ => flushed_eq V c t) cover

end Cert.KernelIdeal.Reg4

end
-- ==== Proof.KWalk.lean ====
/-
  The contents of the live buffers at every boundary of the idealized kernel's @main, each as a function of the launch
  memory: a walk from the launch to the return.  A buffer that a segment does not write keeps its contents (a stretch of host
  operations that does not name it as a result; a pallas_call of which it is no window's array, or only an input window's);
  a buffer that a stretch writes holds the stretch's function of the buffers it reads; the output array of a pallas_call
  holds the stage of Stages.lean of the call's input arrays as entered.  The last line is the result buffer at the last
  boundary: the kernel's whole function of the eleven arguments.
-/
import proofs.«102298_j76175539961908_2_alg».proof.Proof.Gen.KernelIdeal.Frame
import proofs.«102298_j76175539961908_2_alg».proof.Proof.KHost
import proofs.«102298_j76175539961908_2_alg».proof.Proof.KKeep
import proofs.«102298_j76175539961908_2_alg».proof.Proof.KVal
import proofs.«102298_j76175539961908_2_alg».proof.Proof.Reg0
import proofs.«102298_j76175539961908_2_alg».proof.Proof.Reg1
import proofs.«102298_j76175539961908_2_alg».proof.Proof.Reg2
import proofs.«102298_j76175539961908_2_alg».proof.Proof.Reg3
import proofs.«102298_j76175539961908_2_alg».proof.Proof.Reg4

noncomputable section

namespace Cert.KernelIdeal.KWalk

open Cert.KernelIdeal Cert.KernelIdeal.Gen Cert.KernelIdeal.KHost Cert.KernelIdeal.KVal
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- A buffer of core c as launched. -/
abbrev arg (b : Ref sig .tc) : Buf (Elt Ideal) ((c : Thread nD τ).loc b) := m ((c : Thread nD τ).loc b)

theorem w1_arg0 : W1 m ρ c (Proc.devRef .tc main_arg0) = arg m c main_arg0 :=
  W1_of_ne m ρ c main_arg0 (by decide)
theorem w1_arg2 : W1 m ρ c (Proc.devRef .tc main_arg2) = arg m c main_arg2 :=
  W1_of_ne m ρ c main_arg2 (by decide)
theorem w1_arg3 : W1 m ρ c (Proc.devRef .tc main_arg3) = arg m c main_arg3 :=
  W1_of_ne m ρ c main_arg3 (by decide)
theorem w1_arg4 : W1 m ρ c (Proc.devRef .tc main_arg4) = arg m c main_arg4 :=
  W1_of_ne m ρ c main_arg4 (by decide)
theorem w1_arg5 : W1 m ρ c (Proc.devRef .tc main_arg5) = arg m c main_arg5 :=
  W1_of_ne m ρ c main_arg5 (by decide)
theorem w1_arg6 : W1 m ρ c (Proc.devRef .tc main_arg6) = arg m c main_arg6 :=
  W1_of_ne m ρ c main_arg6 (by decide)
theorem w1_arg7 : W1 m ρ c (Proc.devRef .tc main_arg7) = arg m c main_arg7 :=
  W1_of_ne m ρ c main_arg7 (by decide)
theorem w1_arg8 : W1 m ρ c (Proc.devRef .tc main_arg8) = arg m c main_arg8 :=
  W1_of_ne m ρ c main_arg8 (by decide)
theorem w1_arg9 : W1 m ρ c (Proc.devRef .tc main_arg9) = arg m c main_arg9 :=
  W1_of_ne m ρ c main_arg9 (by decide)
theorem w1_arg10 : W1 m ρ c (Proc.devRef .tc main_arg10) = arg m c main_arg10 :=
  W1_of_ne m ρ c main_arg10 (by decide)
theorem w1_v0 : W1 m ρ c (Proc.devRef .tc main_v0) = Cert.Stages.edgeW (arg m c main_arg1) :=
  (W1_arr m ρ c 1).trans (Cert.KernelIdeal.Reg0.final (V0 m ρ) c)

theorem w6_v12 : W6 m ρ c (Proc.devRef .tc main_v12) = kScale (arg m c main_arg2) :=
  (H1_v12 (W1 m ρ c)).trans (by rw [w1_arg2]; rfl)
theorem w6_v15 : W6 m ρ c (Proc.devRef .tc main_v15) = kScale (arg m c main_arg3) :=
  (H1_v15 (W1 m ρ c)).trans (by rw [w1_arg3]; rfl)
theorem w6_v16 : W6 m ρ c (Proc.devRef .tc main_v16) = row128 (F := Ideal) (arg m c main_arg6) :=
  (H1_v16 (W1 m ρ c)).trans (by rw [w1_arg6])
theorem w6_v17 : W6 m ρ c (Proc.devRef .tc main_v17) = row128 (F := Ideal) (arg m c main_arg8) :=
  (H1_v17 (W1 m ρ c)).trans (by rw [w1_arg8])
theorem w6_v18 : W6 m ρ c (Proc.devRef .tc main_v18) = row64 (F := Ideal) (arg m c main_arg10) :=
  (H1_v18 (W1 m ρ c)).trans (by rw [w1_arg10])
theorem w6_v0 : W6 m ρ c (Proc.devRef .tc main_v0) = Cert.Stages.edgeW (arg m c main_arg1) :=
  (H1_main_v0 (W1 m ρ c)).trans (w1_v0 m ρ c)
theorem w6_arg0 : W6 m ρ c (Proc.devRef .tc main_arg0) = arg m c main_arg0 :=
  (H1_main_arg0 (W1 m ρ c)).trans (w1_arg0 m ρ c)
theorem w6_arg2 : W6 m ρ c (Proc.devRef .tc main_arg2) = arg m c main_arg2 :=
  (H1_main_arg2 (W1 m ρ c)).trans (w1_arg2 m ρ c)
theorem w6_arg3 : W6 m ρ c (Proc.devRef .tc main_arg3) = arg m c main_arg3 :=
  (H1_main_arg3 (W1 m ρ c)).trans (w1_arg3 m ρ c)
theorem w6_arg4 : W6 m ρ c (Proc.devRef .tc main_arg4) = arg m c main_arg4 :=
  (H1_main_arg4 (W1 m ρ c)).trans (w1_arg4 m ρ c)
theorem w6_arg5 : W6 m ρ c (Proc.devRef .tc main_arg5) = arg m c main_arg5 :=
  (H1_main_arg5 (W1 m ρ c)).trans (w1_arg5 m ρ c)
theorem w6_arg7 : W6 m ρ c (Proc.devRef .tc main_arg7) = arg m c main_arg7 :=
  (H1_main_arg7 (W1 m ρ c)).trans (w1_arg7 m ρ c)
theorem w6_arg9 : W6 m ρ c (Proc.devRef .tc main_arg9) = arg m c main_arg9 :=
  (H1_main_arg9 (W1 m ρ c)).trans (w1_arg9 m ρ c)

theorem w7_v19 : W7 m ρ c (Proc.devRef .tc main_v19) = kHS (arg m c main_arg0) (arg m c main_arg2) (arg m c main_arg5) (arg m c main_arg6) :=
  (W7_arr m ρ c 4).trans ((Cert.KernelIdeal.Reg1.final (V6 m ρ) c).trans (by
    show Cert.Stages.embed (W6 m ρ c (Proc.devRef .tc main_arg0)) (W6 m ρ c (Proc.devRef .tc main_arg5)) (W6 m ρ c (Proc.devRef .tc main_v16)) (W6 m ρ c (Proc.devRef .tc main_v12)) = _
    rw [w6_arg0, w6_arg5, w6_v16, w6_v12]; rfl))
theorem w7_v12 : W7 m ρ c (Proc.devRef .tc main_v12) = kScale (arg m c main_arg2) :=
  (W7_arr m ρ c 3).trans (((dat1 (V6 m ρ) c).arrAt_in 3 rfl _).trans ((A_eq1 (V6 m ρ) c 3).trans (w6_v12 m ρ c)))
theorem w7_v0 : W7 m ρ c (Proc.devRef .tc main_v0) = Cert.Stages.edgeW (arg m c main_arg1) :=
  (W7_of_ne m ρ c main_v0 (by decide)).trans (w6_v0 m ρ c)
theorem w7_v15 : W7 m ρ c (Proc.devRef .tc main_v15) = kScale (arg m c main_arg3) :=
  (W7_of_ne m ρ c main_v15 (by decide)).trans (w6_v15 m ρ c)
theorem w7_v17 : W7 m ρ c (Proc.devRef .tc main_v17) = row128 (F := Ideal) (arg m c main_arg8) :=
  (W7_of_ne m ρ c main_v17 (by decide)).trans (w6_v17 m ρ c)
theorem w7_v18 : W7 m ρ c (Proc.devRef .tc main_v18) = row64 (F := Ideal) (arg m c main_arg10) :=
  (W7_of_ne m ρ c main_v18 (by decide)).trans (w6_v18 m ρ c)
theorem w7_arg2 : W7 m ρ c (Proc.devRef .tc main_arg2) = arg m c main_arg2 :=
  (W7_of_ne m ρ c main_arg2 (by decide)).trans (w6_arg2 m ρ c)
theorem w7_arg3 : W7 m ρ c (Proc.devRef .tc main_arg3) = arg m c main_arg3 :=
  (W7_of_ne m ρ c main_arg3 (by decide)).trans (w6_arg3 m ρ c)
theorem w7_arg4 : W7 m ρ c (Proc.devRef .tc main_arg4) = arg m c main_arg4 :=
  (W7_of_ne m ρ c main_arg4 (by decide)).trans (w6_arg4 m ρ c)
theorem w7_arg7 : W7 m ρ c (Proc.devRef .tc main_arg7) = arg m c main_arg7 :=
  (W7_of_ne m ρ c main_arg7 (by decide)).trans (w6_arg7 m ρ c)
theorem w7_arg9 : W7 m ρ c (Proc.devRef .tc main_arg9) = arg m c main_arg9 :=
  (W7_of_ne m ρ c main_arg9 (by decide)).trans (w6_arg9 m ρ c)

theorem w8_v31 : W8 m ρ c (Proc.devRef .tc main_v31) = kAGG (arg m c main_arg0) (arg m c main_arg1) (arg m c main_arg2) (arg m c main_arg3) (arg m c main_arg5) (arg m c main_arg6) :=
  (H2_v31 (W7 m ρ c)).trans (by rw [w7_v19, w7_arg2, w7_arg3, w7_v0]; rfl)
theorem w8_v0 : W8 m ρ c (Proc.devRef .tc main_v0) = Cert.Stages.edgeW (arg m c main_arg1) :=
  (H2_main_v0 (W7 m ρ c)).trans (w7_v0 m ρ c)
theorem w8_v12 : W8 m ρ c (Proc.devRef .tc main_v12) = kScale (arg m c main_arg2) :=
  (H2_main_v12 (W7 m ρ c)).trans (w7_v12 m ρ c)
theorem w8_v15 : W8 m ρ c (Proc.devRef .tc main_v15) = kScale (arg m c main_arg3) :=
  (H2_main_v15 (W7 m ρ c)).trans (w7_v15 m ρ c)
theorem w8_v17 : W8 m ρ c (Proc.devRef .tc main_v17) = row128 (F := Ideal) (arg m c main_arg8) :=
  (H2_main_v17 (W7 m ρ c)).trans (w7_v17 m ρ c)
theorem w8_v18 : W8 m ρ c (Proc.devRef .tc main_v18) = row64 (F := Ideal) (arg m c main_arg10) :=
  (H2_main_v18 (W7 m ρ c)).trans (w7_v18 m ρ c)
theorem w8_arg2 : W8 m ρ c (Proc.devRef .tc main_arg2) = arg m c main_arg2 :=
  (H2_main_arg2 (W7 m ρ c)).trans (w7_arg2 m ρ c)
theorem w8_arg3 : W8 m ρ c (Proc.devRef .tc main_arg3) = arg m c main_arg3 :=
  (H2_main_arg3 (W7 m ρ c)).trans (w7_arg3 m ρ c)
theorem w8_arg4 : W8 m ρ c (Proc.devRef .tc main_arg4) = arg m c main_arg4 :=
  (H2_main_arg4 (W7 m ρ c)).trans (w7_arg4 m ρ c)
theorem w8_arg7 : W8 m ρ c (Proc.devRef .tc main_arg7) = arg m c main_arg7 :=
  (H2_main_arg7 (W7 m ρ c)).trans (w7_arg7 m ρ c)
theorem w8_arg9 : W8 m ρ c (Proc.devRef .tc main_arg9) = arg m c main_arg9 :=
  (H2_main_arg9 (W7 m ρ c)).trans (w7_arg9 m ρ c)

theorem w9_v32 : W9 m ρ c (Proc.devRef .tc main_v32) = kX (arg m c main_arg0) (arg m c main_arg1) (arg m c main_arg2) (arg m c main_arg3) (arg m c main_arg5) (arg m c main_arg6) (arg m c main_arg7) (arg m c main_arg8) :=
  (W9_arr m ρ c 4).trans ((Cert.KernelIdeal.Reg2.final (V8 m ρ) c).trans (by
    show Cert.Stages.conv1 (W8 m ρ c (Proc.devRef .tc main_v31)) (W8 m ρ c (Proc.devRef .tc main_v15)) (W8 m ρ c (Proc.devRef .tc main_arg7)) (W8 m ρ c (Proc.devRef .tc main_v17)) = _
    rw [w8_v31, w8_v15, w8_arg7, w8_v17]; rfl))
theorem w9_v15 : W9 m ρ c (Proc.devRef .tc main_v15) = kScale (arg m c main_arg3) :=
  (W9_arr m ρ c 1).trans (((dat2 (V8 m ρ) c).arrAt_in 1 rfl _).trans ((A_eq2 (V8 m ρ) c 1).trans (w8_v15 m ρ c)))
theorem w9_v0 : W9 m ρ c (Proc.devRef .tc main_v0) = Cert.Stages.edgeW (arg m c main_arg1) :=
  (W9_of_ne m ρ c main_v0 (by decide)).trans (w8_v0 m ρ c)
theorem w9_v12 : W9 m ρ c (Proc.devRef .tc main_v12) = kScale (arg m c main_arg2) :=
  (W9_of_ne m ρ c main_v12 (by decide)).trans (w8_v12 m ρ c)
theorem w9_v18 : W9 m ρ c (Proc.devRef .tc main_v18) = row64 (F := Ideal) (arg m c main_arg10) :=
  (W9_of_ne m ρ c main_v18 (by decide)).trans (w8_v18 m ρ c)
theorem w9_arg2 : W9 m ρ c (Proc.devRef .tc main_arg2) = arg m c main_arg2 :=
  (W9_of_ne m ρ c main_arg2 (by decide)).trans (w8_arg2 m ρ c)
theorem w9_arg3 : W9 m ρ c (Proc.devRef .tc main_arg3) = arg m c main_arg3 :=
  (W9_of_ne m ρ c main_arg3 (by decide)).trans (w8_arg3 m ρ c)
theorem w9_arg4 : W9 m ρ c (Proc.devRef .tc main_arg4) = arg m c main_arg4 :=
  (W9_of_ne m ρ c main_arg4 (by decide)).trans (w8_arg4 m ρ c)
theorem w9_arg9 : W9 m ρ c (Proc.devRef .tc main_arg9) = arg m c main_arg9 :=
  (W9_of_ne m ρ c main_arg9 (by decide)).trans (w8_arg9 m ρ c)

theorem w10_v33 : W10 m ρ c (Proc.devRef .tc main_v33) = kHS2 (arg m c main_arg0) (arg m c main_arg1) (arg m c main_arg2) (arg m c main_arg3) (arg m c main_arg5) (arg m c main_arg6) (arg m c main_arg7) (arg m c main_arg8) (arg m c main_arg9) :=
  (W10_arr m ρ c 3).trans ((Cert.KernelIdeal.Reg3.final (V9 m ρ) c).trans (by
    show Cert.Stages.pre2 (W9 m ρ c (Proc.devRef .tc main_v32)) (W9 m ρ c (Proc.devRef .tc main_v12)) (W9 m ρ c (Proc.devRef .tc main_arg9)) = _
    rw [w9_v32, w9_v12, w9_arg9]; rfl))
theorem w10_v0 : W10 m ρ c (Proc.devRef .tc main_v0) = Cert.Stages.edgeW (arg m c main_arg1) :=
  (W10_of_ne m ρ c main_v0 (by decide)).trans (w9_v0 m ρ c)
theorem w10_v15 : W10 m ρ c (Proc.devRef .tc main_v15) = kScale (arg m c main_arg3) :=
  (W10_of_ne m ρ c main_v15 (by decide)).trans (w9_v15 m ρ c)
theorem w10_v18 : W10 m ρ c (Proc.devRef .tc main_v18) = row64 (F := Ideal) (arg m c main_arg10) :=
  (W10_of_ne m ρ c main_v18 (by decide)).trans (w9_v18 m ρ c)
theorem w10_arg2 : W10 m ρ c (Proc.devRef .tc main_arg2) = arg m c main_arg2 :=
  (W10_of_ne m ρ c main_arg2 (by decide)).trans (w9_arg2 m ρ c)
theorem w10_arg3 : W10 m ρ c (Proc.devRef .tc main_arg3) = arg m c main_arg3 :=
  (W10_of_ne m ρ c main_arg3 (by decide)).trans (w9_arg3 m ρ c)
theorem w10_arg4 : W10 m ρ c (Proc.devRef .tc main_arg4) = arg m c main_arg4 :=
  (W10_of_ne m ρ c main_arg4 (by decide)).trans (w9_arg4 m ρ c)

theorem w11_v45 : W11 m ρ c (Proc.devRef .tc main_v45) = kAGG2 (arg m c main_arg0) (arg m c main_arg1) (arg m c main_arg2) (arg m c main_arg3) (arg m c main_arg5) (arg m c main_arg6) (arg m c main_arg7) (arg m c main_arg8) (arg m c main_arg9) :=
  (H4_v45 (W10 m ρ c)).trans (by rw [w10_v33, w10_arg2, w10_arg3, w10_v0]; rfl)
theorem w11_v15 : W11 m ρ c (Proc.devRef .tc main_v15) = kScale (arg m c main_arg3) :=
  (H4_main_v15 (W10 m ρ c)).trans (w10_v15 m ρ c)
theorem w11_v18 : W11 m ρ c (Proc.devRef .tc main_v18) = row64 (F := Ideal) (arg m c main_arg10) :=
  (H4_main_v18 (W10 m ρ c)).trans (w10_v18 m ρ c)
theorem w11_arg4 : W11 m ρ c (Proc.devRef .tc main_arg4) = arg m c main_arg4 :=
  (H4_main_arg4 (W10 m ρ c)).trans (w10_arg4 m ρ c)

theorem w12_v46 : W12 m ρ c (Proc.devRef .tc main_v46) = kX2 (arg m c main_arg0) (arg m c main_arg1) (arg m c main_arg2) (arg m c main_arg3) (arg m c main_arg5) (arg m c main_arg6) (arg m c main_arg7) (arg m c main_arg8) (arg m c main_arg9) (arg m c main_arg10) :=
  (W12_arr m ρ c 3).trans ((Cert.KernelIdeal.Reg4.final (V11 m ρ) c).trans (by
    show Cert.Stages.post2 (W11 m ρ c (Proc.devRef .tc main_v45)) (W11 m ρ c (Proc.devRef .tc main_v15)) (W11 m ρ c (Proc.devRef .tc main_v18)) = _
    rw [w11_v45, w11_v15, w11_v18]; rfl))
theorem w12_arg4 : W12 m ρ c (Proc.devRef .tc main_arg4) = arg m c main_arg4 :=
  (W12_of_ne m ρ c main_arg4 (by decide)).trans (w11_arg4 m ρ c)

/-- THE RESULT at the last boundary: the kernel's function of the eleven arguments as launched. -/
theorem w15_v57 : W15 m ρ c (Proc.devRef .tc main_v57) = kOUT (arg m c main_arg0) (arg m c main_arg1) (arg m c main_arg2) (arg m c main_arg3) (arg m c main_arg4) (arg m c main_arg5) (arg m c main_arg6) (arg m c main_arg7) (arg m c main_arg8) (arg m c main_arg9) (arg m c main_arg10) :=
  (H5_v57 (W12 m ρ c)).trans (by rw [w12_v46, w12_arg4]; rfl)

end Cert.KernelIdeal.KWalk

end
-- ==== Proof.RefStages.lean ====
import proofs.«102298_j76175539961908_2_alg».proof.Proof.Gen.ReferenceIdeal.Read
import proofs.«102298_j76175539961908_2_alg».proof.Proof.Stages

noncomputable section

open Idealize.ShloMosaic Idealize.ShloMosaic.TcCoe Idealize.SL.Sem Idealize.ShloMosaic.ValueIdx

namespace Cert.ReferenceIdeal.RefStages
open Cert.ReferenceIdeal Cert.ReferenceIdeal.Read

/-- The reference's edge-weight column (its row of weights laid as [E, 1]) is the stage `edgeW`. -/
theorem edge (x1 : (⟨S1600000x3, .f32⟩ : BufTy).Contents (Elt Ideal)) :
    val_main_v33 (F := Ideal) x1 = Cert.Stages.edgeW x1 := by
  funext i
  -- element k of row (i 0) of the squares is read at the index (i 0, k)
  have e1 : ∀ k : Fin 3, idx_main_v1 (idx_main_v33 i) k = ix2 (i 0) k := fun k =>
    funext fun a => Fin.ext (by match a with | ⟨0, _⟩ => rfl | ⟨1, _⟩ => rfl)
  rw [val_main_v33_apply, val_main_v5_apply, val_main_v4_apply, val_main_v2_apply, val_main_v1_apply,
    val_main_v3_apply, val_main_cst_0_apply, val_main_cst_apply]
  simp only [val_main_v0_apply, e1, Ideal.mulf_def, Ideal.hostNegf_def, Ideal.negf_def, Ideal.hostDivf_def,
    Ideal.hostUnary_exp_def, Ideal.ofBits_def, Ideal.ofBits_zero_f32, zero_add]
  rfl

/-- The same column, as the second layer reads it. -/
theorem edge' (x1 : (⟨S1600000x3, .f32⟩ : BufTy).Contents (Elt Ideal)) :
    val_main_v58 (F := Ideal) x1 = Cert.Stages.edgeW x1 := by
  funext i
  have e1 : ∀ k : Fin 3, idx_main_v1 (idx_main_v58 i) k = ix2 (i 0) k := fun k =>
    funext fun a => Fin.ext (by match a with | ⟨0, _⟩ => rfl | ⟨1, _⟩ => rfl)
  rw [val_main_v58_apply, val_main_v5_apply, val_main_v4_apply, val_main_v2_apply, val_main_v1_apply,
    val_main_v3_apply, val_main_cst_0_apply, val_main_cst_apply]
  simp only [val_main_v0_apply, e1, Ideal.mulf_def, Ideal.hostNegf_def, Ideal.negf_def, Ideal.hostDivf_def,
    Ideal.hostUnary_exp_def, Ideal.ofBits_def, Ideal.ofBits_zero_f32, zero_add]
  rfl

/-- The reference's scaled embedding is the stage `embed` of its own bias row and source-scale column. -/
theorem emb (x0 : (⟨S50000x92, .f32⟩ : BufTy).Contents (Elt Ideal)) (x2 : (⟨S1600000, .i32⟩ : BufTy).Contents (Elt Ideal)) (x5 : (⟨S92x128, .f32⟩ : BufTy).Contents (Elt Ideal)) (x6 : (⟨S128, .f32⟩ : BufTy).Contents (Elt Ideal)) :
    val_main_v25 (F := Ideal) x0 x2 x5 x6 = Cert.Stages.embed x0 x5 (val_main_v20 (F := Ideal) x6) (val_main_v23 (F := Ideal) x2) := by
  funext i
  have el : ∀ k : Fin 92, lidx_main_v19 i k = ix2 (i 0) k := fun k =>
    funext fun a => Fin.ext (by match a with | ⟨0, _⟩ => rfl | ⟨1, _⟩ => rfl)
  have er : ∀ k : Fin 92, ridx_main_v19 i k = ix2 k (i 1) := fun k =>
    funext fun a => Fin.ext (by match a with | ⟨0, _⟩ => rfl | ⟨1, _⟩ => rfl)
  have eb : idx_main_v21 i = ix2 0 (i 1) :=
    funext fun a => Fin.ext (by match a with | ⟨0, _⟩ => rfl | ⟨1, _⟩ => rfl)
  have es : idx_main_v24 i = ix2 (i 0) 0 :=
    funext fun a => Fin.ext (by match a with | ⟨0, _⟩ => rfl | ⟨1, _⟩ => rfl)
  rw [val_main_v25_apply, val_main_v22_apply, val_main_v19_apply, val_main_v21_apply, val_main_v24_apply]
  simp only [el, er, eb, es, Ideal.mulf_def, Ideal.addf_def]
  rfl

/-- The reference's first-layer activations are the stage `conv1` of its aggregate, its target-scale column and its bias row. -/
theorem c1 (x0 : (⟨S50000x92, .f32⟩ : BufTy).Contents (Elt Ideal)) (x1 : (⟨S1600000x3, .f32⟩ : BufTy).Contents (Elt Ideal)) (x2 x3 : (⟨S1600000, .i32⟩ : BufTy).Contents (Elt Ideal)) (x5 : (⟨S92x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v46 (F := Ideal) x0 x1 x2 x3 x5 x6 x7 x8
      = Cert.Stages.conv1 (val_main_v38 (F := Ideal) x0 x1 x2 x3 x5 x6) (val_main_v39 (F := Ideal) x3) x7 (val_main_v43 (F := Ideal) x8) := by
  funext i
  have el : ∀ k : Fin 128, lidx_main_v42 i k = ix2 (i 0) k := fun k =>
    funext fun a => Fin.ext (by match a with | ⟨0, _⟩ => rfl | ⟨1, _⟩ => rfl)
  have er : ∀ k : Fin 128, ridx_main_v42 i k = ix2 k (i 1) := fun k =>
    funext fun a => Fin.ext (by match a with | ⟨0, _⟩ => rfl | ⟨1, _⟩ => rfl)
  have ed : ∀ k : Fin 128, idx_main_v40 (ix2 (i 0) k) = ix2 (i 0) 0 := fun k =>
    funext fun a => Fin.ext (by match a with | ⟨0, _⟩ => rfl | ⟨1, _⟩ => rfl)
  have eb : idx_main_v44 i = ix2 0 (i 1) :=
    funext fun a => Fin.ext (by match a with | ⟨0, _⟩ => rfl | ⟨1, _⟩ => rfl)
  -- the scaled aggregate, read at (i 0, k)
  have h41 : ∀ k : Fin 128, val_main_v41 (F := Ideal) x0 x1 x2 x3 x5 x6 (lidx_main_v42 i k)
      = val_main_v38 (F := Ideal) x0 x1 x2 x3 x5 x6 (ix2 (i 0) k) * val_main_v39 (F := Ideal) x3 (ix2 (i 0) 0) := fun k => by
    rw [val_main_v41_apply, val_main_v40_apply, el k, ed k]
    rfl
  rw [val_main_v46_apply, val_main_v45_apply, val_main_v42_apply, val_main_v44_apply, val_main_call2_v0_apply,
    val_main_call2_cst_apply]
  simp only [h41, er, eb, Ideal.addf_def, Ideal.maximumf_def, Ideal.ofBits_def, Ideal.ofBits_zero_f32]
  rfl

/-- The reference's second-layer projection is the stage `pre2` of its activations and its source-scale column. -/
theorem p2 (x0 : (⟨S50000x92, .f32⟩ : BufTy).Contents (Elt Ideal)) (x1 : (⟨S1600000x3, .f32⟩ : BufTy).Contents (Elt Ideal)) (x2 x3 : (⟨S1600000, .i32⟩ : BufTy).Contents (Elt Ideal)) (x5 : (⟨S92x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) :
    val_main_v50 (F := Ideal) x0 x1 x2 x3 x5 x6 x7 x8 x9
      = Cert.Stages.pre2 (val_main_v46 (F := Ideal) x0 x1 x2 x3 x5 x6 x7 x8) (val_main_v47 (F := Ideal) x2) x9 := by
  funext i
  have el : ∀ k : Fin 128, lidx_main_v50 i k = ix2 (i 0) k := fun k =>
    funext fun a => Fin.ext (by match a with | ⟨0, _⟩ => rfl | ⟨1, _⟩ => rfl)
  have er : ∀ k : Fin 128, ridx_main_v50 i k = ix2 k (i 1) := fun k =>
    funext fun a => Fin.ext (by match a with | ⟨0, _⟩ => rfl | ⟨1, _⟩ => rfl)
  have es : ∀ k : Fin 128, idx_main_v48 (ix2 (i 0) k) = ix2 (i 0) 0 := fun k =>
    funext fun a => Fin.ext (by match a with | ⟨0, _⟩ => rfl | ⟨1, _⟩ => rfl)
  -- the scaled activations, read at (i 0, k)
  have h49 : ∀ k : Fin 128, val_main_v49 (F := Ideal) x0 x1 x2 x3 x5 x6 x7 x8 (lidx_main_v50 i k)
      = val_main_v46 (F := Ideal) x0 x1 x2 x3 x5 x6 x7 x8 (ix2 (i 0) k) * val_main_v47 (F := Ideal) x2 (ix2 (i 0) 0) := fun k => by
    rw [val_main_v49_apply, val_main_v48_apply, el k, es k]
    rfl
  rw [val_main_v50_apply]
  simp only [h49, er]
  rfl

/-- The reference's second-layer result is the stage `post2` of its aggregate, its target-scale column and its bias row. -/
theorem q2 (x0 : (⟨S50000x92, .f32⟩ : BufTy).Contents (Elt Ideal)) (x1 : (⟨S1600000x3, .f32⟩ : BufTy).Contents (Elt Ideal)) (x2 x3 : (⟨S1600000, .i32⟩ : BufTy).Contents (Elt Ideal)) (x5 : (⟨S92x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) :
    val_main_v69 (F := Ideal) x0 x1 x2 x3 x5 x6 x7 x8 x9 x10
      = Cert.Stages.post2 (val_main_v63 (F := Ideal) x0 x1 x2 x3 x5 x6 x7 x8 x9) (val_main_v64 (F := Ideal) x3) (val_main_v67 (F := Ideal) x10) := by
  funext i
  have ed : idx_main_v65 i = ix2 (i 0) 0 :=
    funext fun a => Fin.ext (by match a with | ⟨0, _⟩ => rfl | ⟨1, _⟩ => rfl)
  have eb : idx_main_v68 i = ix2 0 (i 1) :=
    funext fun a => Fin.ext (by match a with | ⟨0, _⟩ => rfl | ⟨1, _⟩ => rfl)
  rw [val_main_v69_apply, val_main_v66_apply, val_main_v65_apply, val_main_v68_apply]
  simp only [ed, eb, Ideal.mulf_def, Ideal.addf_def]
  rfl

end Cert.ReferenceIdeal.RefStages

end
-- ==== Proof.BridgeLayout.lean ====
/-
  The kernel's host lays a per-node vector as a column [N, 1] and a bias vector as a row [1, w] by a reshape; the reference
  does the same by a broadcast along one axis.  As whole arrays the two are equal: a reshape keeps the row-major position,
  and with one axis of size one that position is the other coordinate.
-/
import proofs.«102298_j76175539961908_2_alg».proof.Proof.KHost
import proofs.«102298_j76175539961908_2_alg».proof.Proof.Gen.ReferenceIdeal.Read
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.Bridge

/-- The column the kernel's host lays a node vector into is the reference's broadcast of it along axis 0:
    both read the vector at the row coordinate. -/
theorem col_eq (y : (⟨Cert.KernelIdeal.S50000, .f32⟩ : BufTy).Contents (Elt Ideal)) :
    Cert.KernelIdeal.KHost.col (F := Ideal) y
      = broadcastInDim Cert.ReferenceIdeal.S50000x1 ![0] Cert.ReferenceIdeal.Gen.bcast_S50000_S50000x1_0 y := by
  funext i
  -- the reshape: position (i 0) * 1 + (i 1) of the column is position (i 0) of the vector, the unit coordinate being 0
  have hl : Cert.KernelIdeal.KHost.col (F := Ideal) y i = y (ix1 (i 0)) := by
    unfold Cert.KernelIdeal.KHost.col
    exact shapeCast_apply y Cert.KernelIdeal.Gen.shapeCasts_S50000_S50000x1 i (ix1 (i 0)) (by
      have hu : (i 1).val = 0 := by have := idx2_lt1 (n0 := 50000) (n1 := 1) i; omega
      rw [Shape.rowMajor_val_two, Shape.rowMajor_val_one]
      show (i 0).val = (i 0).val * 1 + (i 1).val
      rw [hu, Nat.mul_one, Nat.add_zero])
  -- the broadcast: the vector's only axis (of size 50000, not 1) is the result's axis 0
  have hr : broadcastInDim Cert.ReferenceIdeal.S50000x1 ![0] Cert.ReferenceIdeal.Gen.bcast_S50000_S50000x1_0 y i
      = y (ix1 (i 0)) :=
    broadcastInDim_apply _ Cert.ReferenceIdeal.Gen.bcast_S50000_S50000x1_0 y i (ix1 (i 0)) (fun a => match a with
      | ⟨0, _⟩ => by show (i 0).val = if (50000 : Nat) = 1 then 0 else (i 0).val; rw [if_neg (by decide)])
  rw [hl, hr]

/-- The row the kernel's host lays a vector of 128 entries into is the reference's broadcast of it along axis 1:
    both read the vector at the column coordinate. -/
theorem row128_eq (x : (⟨Cert.KernelIdeal.S128, .f32⟩ : BufTy).Contents (Elt Ideal)) :
    Cert.KernelIdeal.KHost.row128 (F := Ideal) x
      = broadcastInDim Cert.ReferenceIdeal.S1x128 ![1] Cert.ReferenceIdeal.Gen.bcast_S128_S1x128_1 x := by
  funext i
  -- the reshape: position (i 0) * 128 + (i 1) of the row is position (i 1) of the vector, the unit coordinate being 0
  have hl : Cert.KernelIdeal.KHost.row128 (F := Ideal) x i = x (ix1 (i 1)) := by
    unfold Cert.KernelIdeal.KHost.row128
    exact shapeCast_apply x Cert.KernelIdeal.Gen.shapeCasts_S128_S1x128 i (ix1 (i 1)) (by
      have hu : (i 0).val = 0 := by have := idx2_lt0 (n0 := 1) (n1 := 128) i; omega
      rw [Shape.rowMajor_val_two, Shape.rowMajor_val_one]
      show (i 1).val = (i 0).val * 128 + (i 1).val
      rw [hu, Nat.zero_mul, Nat.zero_add])
  -- the broadcast: the vector's only axis (of size 128, not 1) is the result's axis 1
  have hr : broadcastInDim Cert.ReferenceIdeal.S1x128 ![1] Cert.ReferenceIdeal.Gen.bcast_S128_S1x128_1 x i
      = x (ix1 (i 1)) :=
    broadcastInDim_apply _ Cert.ReferenceIdeal.Gen.bcast_S128_S1x128_1 x i (ix1 (i 1)) (fun a => match a with
      | ⟨0, _⟩ => by show (i 1).val = if (128 : Nat) = 1 then 0 else (i 1).val; rw [if_neg (by decide)])
  rw [hl, hr]

/-- The row the kernel's host lays a vector of 64 entries into is the reference's broadcast of it along axis 1:
    both read the vector at the column coordinate. -/
theorem row64_eq (x : (⟨Cert.KernelIdeal.S64, .f32⟩ : BufTy).Contents (Elt Ideal)) :
    Cert.KernelIdeal.KHost.row64 (F := Ideal) x
      = broadcastInDim Cert.ReferenceIdeal.S1x64 ![1] Cert.ReferenceIdeal.Gen.bcast_S64_S1x64_1 x := by
  funext i
  -- the reshape: position (i 0) * 64 + (i 1) of the row is position (i 1) of the vector, the unit coordinate being 0
  have hl : Cert.KernelIdeal.KHost.row64 (F := Ideal) x i = x (ix1 (i 1)) := by
    unfold Cert.KernelIdeal.KHost.row64
    exact shapeCast_apply x Cert.KernelIdeal.Gen.shapeCasts_S64_S1x64 i (ix1 (i 1)) (by
      have hu : (i 0).val = 0 := by have := idx2_lt0 (n0 := 1) (n1 := 64) i; omega
      rw [Shape.rowMajor_val_two, Shape.rowMajor_val_one]
      show (i 1).val = (i 0).val * 64 + (i 1).val
      rw [hu, Nat.zero_mul, Nat.zero_add])
  -- the broadcast: the vector's only axis (of size 64, not 1) is the result's axis 1
  have hr : broadcastInDim Cert.ReferenceIdeal.S1x64 ![1] Cert.ReferenceIdeal.Gen.bcast_S64_S1x64_1 x i
      = x (ix1 (i 1)) :=
    broadcastInDim_apply _ Cert.ReferenceIdeal.Gen.bcast_S64_S1x64_1 x i (ix1 (i 1)) (fun a => match a with
      | ⟨0, _⟩ => by show (i 1).val = if (64 : Nat) = 1 then 0 else (i 1).val; rw [if_neg (by decide)])
  rw [hl, hr]

end Cert.Bridge

end
-- ==== Proof.Bridge.lean ====
/-
  The kernel's function of the eleven arguments is the reference's.

  Stage by stage, in program order: the two degree scales are the same host operations in both programs (a scatter-add of
  ones, a clamp at one, a power), laid as a column by a reshape in the kernel and by a broadcast along a new axis in the
  reference — the same array; the three bias rows likewise.  Each dense stage of the reference (its matrix product over
  whole arrays with the bias and scale broadcast) is the stage function of Stages.lean of the reference's own earlier stages;
  the kernel computes that stage function tile by tile.  The two rounds of message passing and the final mean over graphs are
  the SAME host operations in both programs, applied to arrays already shown equal, so they are carried whole and never
  opened.  The last line: `KVal.kOUT` is the reference's result stage.
-/
import proofs.«102298_j76175539961908_2_alg».proof.Proof.KVal
import proofs.«102298_j76175539961908_2_alg».proof.Proof.RefStages
import proofs.«102298_j76175539961908_2_alg».proof.Proof.BridgeLayout
import proofs.«102298_j76175539961908_2_alg».proof.Proof.Gen.ReferenceIdeal.Read

noncomputable section

namespace Cert.Bridge

open Idealize.ShloMosaic Cert.KernelIdeal.KHost Cert.KernelIdeal.KVal Cert.ReferenceIdeal.Read

/-- The source-degree scale: the same scatter-add of ones over the edges' sources, clamp and power in both programs. -/
theorem deg_src (a2 : (⟨Cert.KernelIdeal.S1600000, .i32⟩ : BufTy).Contents (Elt Ideal)) : degScale (F := Ideal) a2 = val_main_v16 (F := Ideal) a2 := by
  unfold degScale val_main_v16 val_main_v13 val_main_call0_v1 val_main_call0_v0 val_main_cst_4 val_main_v9 val_main_v7
    val_main_cst_2 val_main_v8 val_main_v6 val_main_cst_1 val_main_v15 val_main_cst_6
  rfl

/-- The target-degree scale, likewise over the edges' targets. -/
theorem deg_dst (a3 : (⟨Cert.KernelIdeal.S1600000, .i32⟩ : BufTy).Contents (Elt Ideal)) : degScale (F := Ideal) a3 = val_main_v18 (F := Ideal) a3 := by
  unfold degScale val_main_v18 val_main_v14 val_main_call1_v1 val_main_call1_v0 val_main_cst_5 val_main_v12 val_main_v10
    val_main_cst_3 val_main_v11 val_main_v6 val_main_cst_1 val_main_v17 val_main_cst_7
  rfl

/-- The source scale as a column: the kernel's reshape is the reference's broadcast (first layer's use). -/
theorem scale_src (a2 : (⟨Cert.KernelIdeal.S1600000, .i32⟩ : BufTy).Contents (Elt Ideal)) : kScale a2 = val_main_v23 (F := Ideal) a2 := by
  unfold kScale val_main_v23; rw [col_eq, deg_src]
/-- The same column, as the second layer reads it. -/
theorem scale_src' (a2 : (⟨Cert.KernelIdeal.S1600000, .i32⟩ : BufTy).Contents (Elt Ideal)) : kScale a2 = val_main_v47 (F := Ideal) a2 := by
  unfold kScale val_main_v47; rw [col_eq, deg_src]
/-- The target scale as a column (first layer's use). -/
theorem scale_dst (a3 : (⟨Cert.KernelIdeal.S1600000, .i32⟩ : BufTy).Contents (Elt Ideal)) : kScale a3 = val_main_v39 (F := Ideal) a3 := by
  unfold kScale val_main_v39; rw [col_eq, deg_dst]
/-- The same column, as the second layer reads it. -/
theorem scale_dst' (a3 : (⟨Cert.KernelIdeal.S1600000, .i32⟩ : BufTy).Contents (Elt Ideal)) : kScale a3 = val_main_v64 (F := Ideal) a3 := by
  unfold kScale val_main_v64; rw [col_eq, deg_dst]

/-- The scaled embedding. -/
theorem hs_eq (a0 : (⟨Cert.KernelIdeal.S50000x92, .f32⟩ : BufTy).Contents (Elt Ideal)) (a2 : (⟨Cert.KernelIdeal.S1600000, .i32⟩ : BufTy).Contents (Elt Ideal)) (a5 : (⟨Cert.KernelIdeal.S92x128, .f32⟩ : BufTy).Contents (Elt Ideal)) (a6 : (⟨Cert.KernelIdeal.S128, .f32⟩ : BufTy).Contents (Elt Ideal)) :
    kHS a0 a2 a5 a6 = val_main_v25 (F := Ideal) a0 a2 a5 a6 := by
  unfold kHS; rw [row128_eq, scale_src]
  exact (Cert.ReferenceIdeal.RefStages.emb a0 a2 a5 a6).symm

/-- The first round's aggregate: the same gather, product with the edge weights and scatter-add, of equal arrays. -/
theorem agg_eq (a0 : (⟨Cert.KernelIdeal.S50000x92, .f32⟩ : BufTy).Contents (Elt Ideal)) (a1 : (⟨Cert.KernelIdeal.S1600000x3, .f32⟩ : BufTy).Contents (Elt Ideal)) (a2 a3 : (⟨Cert.KernelIdeal.S1600000, .i32⟩ : BufTy).Contents (Elt Ideal)) (a5 : (⟨Cert.KernelIdeal.S92x128, .f32⟩ : BufTy).Contents (Elt Ideal)) (a6 : (⟨Cert.KernelIdeal.S128, .f32⟩ : BufTy).Contents (Elt Ideal)) :
    kAGG a0 a1 a2 a3 a5 a6 = val_main_v38 (F := Ideal) a0 a1 a2 a3 a5 a6 := by
  unfold kAGG agg128; rw [hs_eq, ← Cert.ReferenceIdeal.RefStages.edge a1]
  unfold val_main_v38 val_main_v36 val_main_cst_9 val_main_v37 val_main_v35 val_main_v34 val_main_v32 val_main_v31 val_main_v30
    val_main_v29 val_main_v28 val_main_c_8 val_main_v27 val_main_v26 val_main_c
  rfl

/-- The first layer's activations. -/
theorem x_eq (a0 : (⟨Cert.KernelIdeal.S50000x92, .f32⟩ : BufTy).Contents (Elt Ideal)) (a1 : (⟨Cert.KernelIdeal.S1600000x3, .f32⟩ : BufTy).Contents (Elt Ideal)) (a2 a3 : (⟨Cert.KernelIdeal.S1600000, .i32⟩ : BufTy).Contents (Elt Ideal)) (a5 : (⟨Cert.KernelIdeal.S92x128, .f32⟩ : BufTy).Contents (Elt Ideal)) (a6 : (⟨Cert.KernelIdeal.S128, .f32⟩ : BufTy).Contents (Elt Ideal)) (a7 : (⟨Cert.KernelIdeal.S128x128, .f32⟩ : BufTy).Contents (Elt Ideal)) (a8 : (⟨Cert.KernelIdeal.S128, .f32⟩ : BufTy).Contents (Elt Ideal)) :
    kX a0 a1 a2 a3 a5 a6 a7 a8 = val_main_v46 (F := Ideal) a0 a1 a2 a3 a5 a6 a7 a8 := by
  unfold kX; rw [agg_eq, scale_dst, row128_eq]
  exact (Cert.ReferenceIdeal.RefStages.c1 a0 a1 a2 a3 a5 a6 a7 a8).symm

/-- The second layer's projected rows. -/
theorem hs2_eq (a0 : (⟨Cert.KernelIdeal.S50000x92, .f32⟩ : BufTy).Contents (Elt Ideal)) (a1 : (⟨Cert.KernelIdeal.S1600000x3, .f32⟩ : BufTy).Contents (Elt Ideal)) (a2 a3 : (⟨Cert.KernelIdeal.S1600000, .i32⟩ : BufTy).Contents (Elt Ideal)) (a5 : (⟨Cert.KernelIdeal.S92x128, .f32⟩ : BufTy).Contents (Elt Ideal)) (a6 : (⟨Cert.KernelIdeal.S128, .f32⟩ : BufTy).Contents (Elt Ideal)) (a7 : (⟨Cert.KernelIdeal.S128x128, .f32⟩ : BufTy).Contents (Elt Ideal)) (a8 : (⟨Cert.KernelIdeal.S128, .f32⟩ : BufTy).Contents (Elt Ideal)) (a9 : (⟨Cert.KernelIdeal.S128x64, .f32⟩ : BufTy).Contents (Elt Ideal)) :
    kHS2 a0 a1 a2 a3 a5 a6 a7 a8 a9 = val_main_v50 (F := Ideal) a0 a1 a2 a3 a5 a6 a7 a8 a9 := by
  unfold kHS2; rw [x_eq, scale_src']
  exact (Cert.ReferenceIdeal.RefStages.p2 a0 a1 a2 a3 a5 a6 a7 a8 a9).symm

/-- The second round's aggregate. -/
theorem agg2_eq (a0 : (⟨Cert.KernelIdeal.S50000x92, .f32⟩ : BufTy).Contents (Elt Ideal)) (a1 : (⟨Cert.KernelIdeal.S1600000x3, .f32⟩ : BufTy).Contents (Elt Ideal)) (a2 a3 : (⟨Cert.KernelIdeal.S1600000, .i32⟩ : BufTy).Contents (Elt Ideal)) (a5 : (⟨Cert.KernelIdeal.S92x128, .f32⟩ : BufTy).Contents (Elt Ideal)) (a6 : (⟨Cert.KernelIdeal.S128, .f32⟩ : BufTy).Contents (Elt Ideal)) (a7 : (⟨Cert.KernelIdeal.S128x128, .f32⟩ : BufTy).Contents (Elt Ideal)) (a8 : (⟨Cert.KernelIdeal.S128, .f32⟩ : BufTy).Contents (Elt Ideal)) (a9 : (⟨Cert.KernelIdeal.S128x64, .f32⟩ : BufTy).Contents (Elt Ideal)) :
    kAGG2 a0 a1 a2 a3 a5 a6 a7 a8 a9 = val_main_v63 (F := Ideal) a0 a1 a2 a3 a5 a6 a7 a8 a9 := by
  unfold kAGG2 agg64; rw [hs2_eq, ← Cert.ReferenceIdeal.RefStages.edge' a1]
  unfold val_main_v63 val_main_v61 val_main_cst_12 val_main_v62 val_main_v60 val_main_v59 val_main_v57 val_main_v56 val_main_v55
    val_main_v54 val_main_v53 val_main_c_11 val_main_v52 val_main_v51 val_main_c_10
  rfl

/-- The second layer's result per node. -/
theorem x2_eq (a0 : (⟨Cert.KernelIdeal.S50000x92, .f32⟩ : BufTy).Contents (Elt Ideal)) (a1 : (⟨Cert.KernelIdeal.S1600000x3, .f32⟩ : BufTy).Contents (Elt Ideal)) (a2 a3 : (⟨Cert.KernelIdeal.S1600000, .i32⟩ : BufTy).Contents (Elt Ideal)) (a5 : (⟨Cert.KernelIdeal.S92x128, .f32⟩ : BufTy).Contents (Elt Ideal)) (a6 : (⟨Cert.KernelIdeal.S128, .f32⟩ : BufTy).Contents (Elt Ideal)) (a7 : (⟨Cert.KernelIdeal.S128x128, .f32⟩ : BufTy).Contents (Elt Ideal)) (a8 : (⟨Cert.KernelIdeal.S128, .f32⟩ : BufTy).Contents (Elt Ideal)) (a9 : (⟨Cert.KernelIdeal.S128x64, .f32⟩ : BufTy).Contents (Elt Ideal)) (a10 : (⟨Cert.KernelIdeal.S64, .f32⟩ : BufTy).Contents (Elt Ideal)) :
    kX2 a0 a1 a2 a3 a5 a6 a7 a8 a9 a10 = val_main_v69 (F := Ideal) a0 a1 a2 a3 a5 a6 a7 a8 a9 a10 := by
  unfold kX2; rw [agg2_eq, scale_dst', row64_eq]
  exact (Cert.ReferenceIdeal.RefStages.q2 a0 a1 a2 a3 a5 a6 a7 a8 a9 a10).symm

/-- THE RESULT: the mean over each graph, the same host operations of equal arrays. -/
theorem out_eq (a0 : (⟨Cert.KernelIdeal.S50000x92, .f32⟩ : BufTy).Contents (Elt Ideal)) (a1 : (⟨Cert.KernelIdeal.S1600000x3, .f32⟩ : BufTy).Contents (Elt Ideal)) (a2 a3 : (⟨Cert.KernelIdeal.S1600000, .i32⟩ : BufTy).Contents (Elt Ideal)) (a4 : (⟨Cert.KernelIdeal.S50000, .i32⟩ : BufTy).Contents (Elt Ideal)) (a5 : (⟨Cert.KernelIdeal.S92x128, .f32⟩ : BufTy).Contents (Elt Ideal)) (a6 : (⟨Cert.KernelIdeal.S128, .f32⟩ : BufTy).Contents (Elt Ideal)) (a7 : (⟨Cert.KernelIdeal.S128x128, .f32⟩ : BufTy).Contents (Elt Ideal)) (a8 : (⟨Cert.KernelIdeal.S128, .f32⟩ : BufTy).Contents (Elt Ideal)) (a9 : (⟨Cert.KernelIdeal.S128x64, .f32⟩ : BufTy).Contents (Elt Ideal)) (a10 : (⟨Cert.KernelIdeal.S64, .f32⟩ : BufTy).Contents (Elt Ideal)) :
    kOUT a0 a1 a2 a3 a4 a5 a6 a7 a8 a9 a10 = val_main_v80 (F := Ideal) a0 a1 a2 a3 a4 a5 a6 a7 a8 a9 a10 := by
  unfold kOUT Cert.KernelIdeal.KHost.pool; rw [x2_eq]
  unfold val_main_v80 val_main_v79 val_main_v78 val_main_v77 val_main_v76 val_main_v75 val_main_cst_16 val_main_v74
    val_main_call3_v1 val_main_call3_v0 val_main_cst_15 val_main_v73 val_main_v72 val_main_v71 val_main_cst_14 val_main_v70
    val_main_cst_13
  rfl

end Cert.Bridge

end
-- ==== Proof.lean ====
/-
  The certificate of a two-layer graph convolution over N = 50000 nodes and E = 1600000 edges: a kernel of five
  pallas_calls (the edge weights, tile by tile over the edges; the embedding, the first layer after aggregation and the
  second layer before and after aggregation, tile by tile over the nodes) with the irregular work — degree counts, gathers
  along the edges, scatter-adds into the nodes and into the graphs — left to the host, against a reference that writes the
  same network with whole-array operations.

  Frames: the two kernel programs' frames are the generated ones (five class-A regions among ten stretches of host
  operations); the reference's frame is its run with the result dropped.  The idealization rewrote nothing, so there is
  nothing to preserve.  At the extended reals both programs end with the same array: the kernel's run, with its result named
  at the last boundary of @main (KRun), walked back through the boundaries to a function of the launch memory (KWalk: every
  pallas_call's output is a dense stage of Stages.lean of its input arrays, because every stage reads row n of its inputs
  only and the tiles cover the rows; every stretch is its host operations' function), is the reference's composed term,
  stage by stage (Bridge).  No law of arithmetic is needed beyond reading both sides at an index: the two programs add and
  multiply the same numbers in the same arrangement, so the finiteness of the inputs is never used.
-/
import proofs.«102298_j76175539961908_2_alg».proof.Defs
import proofs.«102298_j76175539961908_2_alg».proof.Proof.Gen.Kernel
import proofs.«102298_j76175539961908_2_alg».proof.Proof.Gen.Kernel.Frame
import proofs.«102298_j76175539961908_2_alg».proof.Proof.Gen.KernelIdeal
import proofs.«102298_j76175539961908_2_alg».proof.Proof.Gen.KernelIdeal.Frame
import proofs.«102298_j76175539961908_2_alg».proof.Proof.Gen.ReferenceIdeal
import proofs.«102298_j76175539961908_2_alg».proof.Proof.Gen.ReferenceIdeal.Run
import proofs.«102298_j76175539961908_2_alg».proof.Proof.Gen.ReferenceIdeal.Read
import proofs.«102298_j76175539961908_2_alg».proof.Proof.Gen.Pre_finite_inputs
import proofs.«102298_j76175539961908_2_alg».proof.Proof.KRun
import proofs.«102298_j76175539961908_2_alg».proof.Proof.KWalk
import proofs.«102298_j76175539961908_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs, from memories agreeing on the arguments, end with the kernel's function of the arguments in
    their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KVal.kOUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KWalk.w15_v57 m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v80_eq, h0, h1, h2, h3, h4, h5, h6, h7, h8, h9, h10]
    exact (Cert.Bridge.out_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
